-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S500000 : S_.BroadcastsInDim S500000 (![] : Fin 0 → Fin S500000.rank)
  reducesTo_S500000_S_d0 : S500000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S257x64 : S_.BroadcastsInDim S257x64 (![] : Fin 0 → Fin S257x64.rank)
  reducesTo_S257x64_S_d0_1 : S257x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S64x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128 .f32) (main_arg10 : FVec F S128x128 .f32) (main_arg11 : FVec F S257x64 .f32) (main_arg12 : FVec F S64 .f32) (main_arg13 : FVec F S64x1 .f32) (main_arg14 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S257x64 .f32 := Host.absf main_arg11
  let main_cst_16 : FVec F S_ .f32 := constant S_ .f32 0x7F800000#32
  let main_v45 : FVec F S257x64 .f32 := broadcastInDim S257x64 ![] bcast_S_S257x64 main_cst_16
  let main_v46 : IVec S257x64 1 := cmpf .olt main_v44 main_v45
  let main_c_17 : IVec S_ 1 := constantI S_ 1 1#1
  let main_v47 : IVec S_ 1 := (fun x v => Host.reduce IntOp.andi x v reducesTo_S257x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S257x64 .f32) (main_arg12 : FVec F S64 .f32) (main_arg13 : FVec F S64x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : FVec F S1600000 .f32) (main_arg3 : IVec S2x500000 32) (main_arg4 : FVec F S500000 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S257x64 .f32) (main_arg12 : FVec F S64 .f32) (main_arg13 : FVec F S64x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S500000 .f32 := Host.absf main_arg4
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x500000 : Shape := ⟨2, ![1, 500000]⟩
abbrev S500000x1 : Shape := ⟨2, ![500000, 1]⟩
abbrev S500000x128 : Shape := ⟨2, ![500000, 128]⟩
abbrev S128x64 : Shape := ⟨2, ![128, 64]⟩
abbrev S1x64 : Shape := ⟨2, ![1, 64]⟩
abbrev S1x1 : Shape := ⟨2, ![1, 1]⟩
abbrev S5000x1 : Shape := ⟨2, ![5000, 1]⟩
abbrev S5000x64 : Shape := ⟨2, ![5000, 64]⟩

abbrev nBuf : Space → Nat
  | .hbm => 99
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S2x500000, .i32⟩
  | .hbm, ⟨4, _⟩ => ⟨S500000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S257x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x1, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S1x500000, .i32⟩
  | .hbm, ⟨70, _⟩ => ⟨S500000, .i32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x128, .f32⟩
  | .hbm, ⟨80, _⟩ => ⟨S1x500000, .i32⟩
  | .hbm, ⟨81, _⟩ => ⟨S500000, .i32⟩
  | .hbm, ⟨82, _⟩ => ⟨S_, .i32⟩
  | .hbm, ⟨83, _⟩ => ⟨S500000, .i32⟩
  | .hbm, ⟨84, _⟩ => ⟨S500000, .i1⟩
  | .hbm, ⟨85, _⟩ => ⟨S_, .i32⟩
  | .hbm, ⟨86, _⟩ => ⟨S500000, .i32⟩
  | .hbm, ⟨87, _⟩ => ⟨S500000, .i32⟩
  | .hbm, ⟨88, _⟩ => ⟨S500000, .i32⟩
  | .hbm, ⟨89, _⟩ => ⟨S500000x1, .i32⟩
  | .hbm, ⟨90, _⟩ => ⟨S500000x128, .f32⟩
  | .hbm, ⟨91, _⟩ => ⟨S500000x1, .f32⟩
  | .hbm, ⟨92, _⟩ => ⟨S128x64, .f32⟩
  | .hbm, ⟨93, _⟩ => ⟨S128x64, .f32⟩
  | .hbm, ⟨94, _⟩ => ⟨S1x64, .f32⟩
  | .hbm, ⟨95, _⟩ => ⟨S1x64, .f32⟩
  | .hbm, ⟨96, _⟩ => ⟨S1x1, .f32⟩
  | .hbm, ⟨97, _⟩ => ⟨S500000x1, .f32⟩
  | .hbm, ⟨98, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x64, .f32⟩
  | .local _ .vmem, ⟨25, _⟩ => ⟨S128x64, .f32⟩
  | .local _ .vmem, ⟨26, _⟩ => ⟨S1x64, .f32⟩
  | .local _ .vmem, ⟨27, _⟩ => ⟨S1x64, .f32⟩
  | .local _ .vmem, ⟨28, _⟩ => ⟨S64x1, .f32⟩
  | .local _ .vmem, ⟨29, _⟩ => ⟨S1x1, .f32⟩
  | .local _ .vmem, ⟨30, _⟩ => ⟨S5000x1, .f32⟩
  | .local _ .vmem, ⟨31, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S257x64_S128x64_0_0 : S257x64.Slices ![0, 0] S128x64
  slices_S257x64_S128x64_128_0 : S257x64.Slices ![128, 0] S128x64
  slices_S257x64_S1x64_256_0 : S257x64.Slices ![256, 0] S1x64
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S500000x1_S500000 : S500000x1.ShapeCasts S500000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x1.size a ≤ S500000x1.size a
  hwx2_9 : ∀ i : grid2.Coords, EltTy.bits .f32 = 32 ∨ (Rect.block (s := S500000x1) S5000x1.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v68) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v69) S5000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S257x64 : Shape := ⟨2, ![257, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x500000 : Shape := ⟨2, ![1, 500000]⟩
abbrev S500000x1 : Shape := ⟨2, ![500000, 1]⟩
abbrev S500000x128 : Shape := ⟨2, ![500000, 128]⟩
abbrev S500000x257 : Shape := ⟨2, ![500000, 257]⟩
abbrev S500000x64 : Shape := ⟨2, ![500000, 64]⟩
abbrev S1x64 : Shape := ⟨2, ![1, 64]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S2x500000, .i32⟩
  | .hbm, ⟨4, _⟩ => ⟨S500000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S257x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x1, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x500000, .i32⟩
  | .hbm, ⟨91, _⟩ => ⟨S500000, .i32⟩
  | .hbm, ⟨92, _⟩ => ⟨S_, .i32⟩
  | .hbm, ⟨93, _⟩ => ⟨S500000, .i32⟩
  | .hbm, ⟨94, _⟩ => ⟨S500000, .i1⟩
  | .hbm, ⟨95, _⟩ => ⟨S_, .i32⟩
  | .hbm, ⟨96, _⟩ => ⟨S500000, .i32⟩
  | .hbm, ⟨97, _⟩ => ⟨S500000, .i32⟩
  | .hbm, ⟨98, _⟩ => ⟨S500000, .i32⟩
  | .hbm, ⟨99, _⟩ => ⟨S500000x1, .i32⟩
  | .hbm, ⟨100, _⟩ => ⟨S500000x128, .f32⟩
  | .hbm, ⟨101, _⟩ => ⟨S1x500000, .i32⟩
  | .hbm, ⟨102, _⟩ => ⟨S500000, .i32⟩
  | .hbm, ⟨103, _⟩ => ⟨S_, .i32⟩
  | .hbm, ⟨104, _⟩ => ⟨S500000, .i32⟩
  | .hbm, ⟨105, _⟩ => ⟨S500000, .i1⟩
  | .hbm, ⟨106, _⟩ => ⟨S_, .i32⟩
  | .hbm, ⟨107, _⟩ => ⟨S500000, .i32⟩
  | .hbm, ⟨108, _⟩ => ⟨S500000, .i32⟩
  | .hbm, ⟨109, _⟩ => ⟨S500000, .i32⟩
  | .hbm, ⟨110, _⟩ => ⟨S500000x1, .i32⟩
  | .hbm, ⟨111, _⟩ => ⟨S500000x128, .f32⟩
  | .hbm, ⟨112, _⟩ => ⟨S500000x1, .f32⟩
  | .hbm, ⟨113, _⟩ => ⟨S500000x257, .f32⟩
  | .hbm, ⟨114, _⟩ => ⟨S500000x64, .f32⟩
  | .hbm, ⟨115, _⟩ => ⟨S1x64, .f32⟩
  | .hbm, ⟨116, _⟩ => ⟨S500000x64, .f32⟩
  | .hbm, ⟨117, _⟩ => ⟨S500000x64, .f32⟩
  | .hbm, ⟨118, _⟩ => ⟨S_, .f32⟩
  | .hbm, ⟨119, _⟩ => ⟨S500000x64, .f32⟩
  | .hbm, ⟨120, _⟩ => ⟨S500000x64, .f32⟩
  | .hbm, ⟨121, _⟩ => ⟨S500000x1, .f32⟩
  | .hbm, ⟨122, _⟩ => ⟨S1x1, .f32⟩
  | .hbm, ⟨123, _⟩ => ⟨S500000x1, .f32⟩
  | .hbm, ⟨124, _⟩ => ⟨S500000x1, .f32⟩
  | .hbm, ⟨125, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call1_cst : Ref sig .tc := ⟨.hbm, 118, rfl⟩
abbrev main_call1_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x1_S500000x257_d1 : Shape.Concatenates [S500000x128, S500000x128, S500000x1] S500000x257 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x257_S257x64_S500000x64_1_0_0_1_n_n_wf : DotDims.WF S500000x257 S257x64 S500000x64 [1] [0] [0] [1] [] []
  dot_S500000x64_S64x1_S500000x1_1_0_0_1_n_n_wf : DotDims.WF S500000x64 S64x1 S500000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x257_S257x64_S500000x64_1_0_0_1_n_n : DotDims S500000x257 S257x64 S500000x64 where
  lhsContracting := [1]
  rhsContracting := [0]
  lhsNonContracting := [0]
  rhsNonContracting := [1]
  lhsBatch := []
  rhsBatch := []
  wf := dot_S500000x257_S257x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.RunValue.lean ====
/-
  The idealized kernel's run, with the result named. The program is three kernel regions among four stretches of host
  operations; its buffers at the seven boundaries are a fold from the launch memory: a stretch applies its operations
  (`StableHlo.after`), a region replaces its arrays by what its write-backs leave. Every weakly fair execution terminates
  with every buffer at the last boundary's contents; read at the result buffer that is the fold at that buffer, and read at
  an argument it is the argument as launched.
-/
import proofs.«175854_j32607391711951_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.RunValue

end
-- ==== Proof.Glue.lean ====
/-
  The host side of the network, shared by the kernel program and the reference: the operations that move data by index.

  For an edge list `ei : [2, E]` (row 0 the sources, row 1 the destinations), edge weights `ew : [E]` and node features
  `feat : [N, d]`:
    * `srcOf ei`, `dstOf ei`: the two rows as vectors; `wrapCol v`: an index vector with every negative entry moved up by
      `N` (Python's indexing from the end), as an `[E, 1]` column of start indices;
    * `invCnt ei`: per node, the number of edges that end there, clamped below at one, as an `[N, 1]` column: each edge adds
      `1` at its destination into a zero vector;
    * `agg feat ei ew`: the weighted mean over incoming edges: each edge's source row times the edge's weight is added at its
      destination into a zero array, and every row is divided by the clamped count.
  For the label edges `eli : [2, L]` and the encoded nodes `z`: `pick0 z eli`, `pick1 z eli` are the rows of `z` at the label
  edges' sources and destinations; `colOf w` is a vector as an `[L, 1]` column. The three row groups of the decoder's first
  weight matrix `[257, 64]` are `rowsA` (rows 0–127), `rowsB` (rows 128–255), `rowC` (row 256); `asRow` is a vector as a
  one-row matrix.
-/
import proofs.«175854_j32607391711951_2_alg».proof.KernelIdeal
import proofs.«175854_j32607391711951_2_alg».proof.Proof.Gen.KernelIdeal
import Idealize.ShloMosaic.PureOps.Ideal

noncomputable section

namespace Cert.KernelIdeal.Glue

open Cert.KernelIdeal Cert.KernelIdeal.Gen Idealize.ShloMosaic Idealize.ShloMosaic.TcCoe

/-- An array of extended reals of shape `S`. -/
abbrev FA (S : Shape) := (⟨S, .f32⟩ : BufTy).Contents (Elt Ideal)
/-- An array of 32-bit integers of shape `S`. -/
abbrev IA (S : Shape) := (⟨S, .i32⟩ : BufTy).Contents (Elt Ideal)

def srcOf (ei : IA S2x1600000) : IA S1600000 :=
  shapeCast _ (extractStridedSlice S1x1600000 ![0, 0] ei slices_S2x1600000_S1x1600000_0_0) shapeCasts_S1x1600000_S1600000

def dstOf (ei : IA S2x1600000) : IA S1600000 :=
  shapeCast _ (extractStridedSlice S1x1600000 ![1, 0] ei slices_S2x1600000_S1x1600000_1_0) shapeCasts_S1x1600000_S1600000

def wrapCol (v : IA S1600000) : IA S1600000x1 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

def invCnt (ei : IA S2x1600000) : FA S100000x1 :=
  broadcastInDim S100000x1 ![0] bcast_S100000_S100000x1_0
    (maximumf (F := Ideal)
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (dstOf ei))
        (broadcastInDim S1600000 ![] bcast_S_S1600000 (constant (F := Ideal) S_ .f32 0x3F800000#32)))
      (broadcastInDim S100000 ![] bcast_S_S100000 (constant (F := Ideal) S_ .f32 0x3F800000#32)))

def agg (feat : FA S100000x128) (ei : IA S2x1600000) (ew : FA S1600000) : FA S100000x128 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dstOf ei))
      (mulf (F := Ideal) (Host.gather gather_S100000x128_S1600000x1_S1600000x128_1_0_n_n_0_1_1128 feat (wrapCol (srcOf ei)))
        (broadcastInDim S1600000x128 ![0, 1] bcast_S1600000x1_S1600000x128_0_1
          (broadcastInDim S1600000x1 ![0] bcast_S1600000_S1600000x1_0 ew))))
    (broadcastInDim S100000x128 ![0, 1] bcast_S100000x1_S100000x128_0_1 (invCnt ei))

def lblOf (r : Nat) (h : S2x500000.Slices ![r, 0] S1x500000) (eli : IA S2x500000) : IA S500000 :=
  shapeCast _ (extractStridedSlice S1x500000 ![r, 0] eli h) shapeCasts_S1x500000_S500000

def wrapColL (v : IA S500000) : IA S500000x1 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

def pick0 (z : FA S100000x128) (eli : IA S2x500000) : FA S500000x128 :=
  Host.gather gather_S100000x128_S500000x1_S500000x128_1_0_n_n_0_1_1128 z (wrapColL (lblOf 0 slices_S2x500000_S1x500000_0_0 eli))

def pick1 (z : FA S100000x128) (eli : IA S2x500000) : FA S500000x128 :=
  Host.gather gather_S100000x128_S500000x1_S500000x128_1_0_n_n_0_1_1128 z (wrapColL (lblOf 1 slices_S2x500000_S1x500000_1_0 eli))

def colOf (w : FA S500000) : FA S500000x1 := broadcastInDim S500000x1 ![0] bcast_S500000_S500000x1_0 w

def rowsA (W : FA S257x64) : FA S128x64 := extractStridedSlice S128x64 ![0, 0] W slices_S257x64_S128x64_0_0
def rowsB (W : FA S257x64) : FA S128x64 := extractStridedSlice S128x64 ![128, 0] W slices_S257x64_S128x64_128_0
def rowC (W : FA S257x64) : FA S1x64 := extractStridedSlice S1x64 ![256, 0] W slices_S257x64_S1x64_256_0

def asRow128 (b : FA S128) : FA S1x128 := shapeCast _ b shapeCasts_S128_S1x128
def asRow64 (b : FA S64) : FA S1x64 := shapeCast _ b shapeCasts_S64_S1x64
def asRow1 (b : FA S1) : FA S1x1 := shapeCast _ b shapeCasts_S1_S1x1

end Cert.KernelIdeal.Glue

end
-- ==== Proof.Boundaries.lean ====
/-
  What the kernel program's buffers hold at each boundary between a stretch of host operations and a kernel region,
  relative to the regions' outputs. A stretch of host operations writes each of its results as its operation of the
  buffers it reads, and leaves every other buffer alone; a region leaves alone every buffer that is not one of its arrays.
  So, walking from the launch: the first region is entered with the aggregated node features `agg x ei ew`, the second
  with `agg h ei ew` for `h` the first region's output, the third with the rows of the second region's output `z` at the
  label edges' endpoints; the weights and biases arrive as launched (a bias as a one-row matrix, the decoder's first weight
  matrix as its three row groups); and the result is the third region's output column flattened to a vector.
-/
import proofs.«175854_j32607391711951_2_alg».proof.Proof.Gen.KernelIdeal.Frame
import proofs.«175854_j32607391711951_2_alg».proof.Proof.Glue
import Idealize.ShloMosaic.Lib.StableHlo.Run

set_option maxRecDepth 16384
set_option maxHeartbeats 4000000

noncomputable section

namespace Cert.KernelIdeal.Boundaries

open Cert.KernelIdeal Cert.KernelIdeal.Gen Cert.KernelIdeal.Glue
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first region's entry: after the first stretch of host operations -/

theorem W1_v25 (c : Dev nD) : W1 m ρ c (Proc.devRef .tc main_v25) = agg (m ((c : Thread nD τ).loc main_arg0)) (m ((c : Thread nD τ).loc main_arg1)) (m ((c : Thread nD τ).loc main_arg2)) := by
  show StableHlo.after hostOps0 (W0 m ρ c) (Proc.devRef .tc main_v25) = _
  after_results_simp <;> rfl

theorem W1_v26 (c : Dev nD) : W1 m ρ c (Proc.devRef .tc main_v26) = asRow128 (m ((c : Thread nD τ).loc main_arg6)) := by
  show StableHlo.after hostOps0 (W0 m ρ c) (Proc.devRef .tc main_v26) = _
  after_results_simp <;> rfl

theorem W1_v1 (c : Dev nD) : W1 m ρ c (Proc.devRef .tc main_v1) = srcOf (m ((c : Thread nD τ).loc main_arg1)) := by
  show StableHlo.after hostOps0 (W0 m ρ c) (Proc.devRef .tc main_v1) = _
  after_results_simp <;> rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results_simp <;> rfl

theorem W1_v10 (c : Dev nD) : W1 m ρ c (Proc.devRef .tc main_v10) = invCnt (m ((c : Thread nD τ).loc main_arg1)) := by
  show StableHlo.after hostOps0 (W0 m ρ c) (Proc.devRef .tc main_v10) = _
  after_results_simp <;> rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl

theorem W1_arg12 (c : Dev nD) : W1 m ρ c (Proc.devRef .tc main_arg12) = m ((c : Thread nD τ).loc main_arg12) := by
  show StableHlo.after hostOps0 (W0 m ρ c) (Proc.devRef .tc main_arg12) = _
  after_results_simp <;> rfl

theorem W1_arg13 (c : Dev nD) : W1 m ρ c (Proc.devRef .tc main_arg13) = m ((c : Thread nD τ).loc main_arg13) := by
  show StableHlo.after hostOps0 (W0 m ρ c) (Proc.devRef .tc main_arg13) = _
  after_results_simp <;> rfl

theorem W1_arg14 (c : Dev nD) : W1 m ρ c (Proc.devRef .tc main_arg14) = m ((c : Thread nD τ).loc main_arg14) := by
  show StableHlo.after hostOps0 (W0 m ρ c) (Proc.devRef .tc main_arg14) = _
  after_results_simp <;> rfl

/-! ## At the first region's exit: a buffer that is none of its arrays is as entered -/

theorem W2_v1 (c : Dev nD) : W2 m ρ c (Proc.devRef .tc main_v1) = srcOf (m ((c : Thread nD τ).loc main_arg1)) :=
  (W2_of_ne m ρ c main_v1 (by decide)).trans (W1_v1 m ρ c)

theorem W2_v3 (c : Dev nD) : W2 m ρ c (Proc.devRef .tc main_v3) = dstOf (m ((c : Thread nD τ).loc main_arg1)) :=
  (W2_of_ne m ρ c main_v3 (by decide)).trans (W1_v3 m ρ c)

theorem W2_v10 (c : Dev nD) : W2 m ρ c (Proc.devRef .tc main_v10) = invCnt (m ((c : Thread nD τ).loc main_arg1)) :=
  (W2_of_ne m ρ c main_v10 (by decide)).trans (W1_v10 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

theorem W2_arg13 (c : Dev nD) : W2 m ρ c (Proc.devRef .tc main_arg13) = m ((c : Thread nD τ).loc main_arg13) :=
  (W2_of_ne m ρ c main_arg13 (by decide)).trans (W1_arg13 m ρ c)

theorem W2_arg14 (c : Dev nD) : W2 m ρ c (Proc.devRef .tc main_arg14) = m ((c : Thread nD τ).loc main_arg14) :=
  (W2_of_ne m ρ c main_arg14 (by decide)).trans (W1_arg14 m ρ c)

/-! ## At the second region's entry -/

theorem W3_v42 (c : Dev nD) : W3 m ρ c (Proc.devRef .tc main_v42) = agg (W2 m ρ c (Proc.devRef .tc main_v27)) (m ((c : Thread nD τ).loc main_arg1)) (m ((c : Thread nD τ).loc main_arg2)) := by
  show StableHlo.after hostOps1 (W2 m ρ c) (Proc.devRef .tc main_v42) = _
  after_results_simp
  rw [W2_v3, W2_v1, W2_arg2, W2_v10]
  rfl

theorem W3_v27 (c : Dev nD) : W3 m ρ c (Proc.devRef .tc main_v27) = W2 m ρ c (Proc.devRef .tc main_v27) := by
  show StableHlo.after hostOps1 (W2 m ρ c) (Proc.devRef .tc main_v27) = _
  after_results_simp <;> rfl

theorem W3_v43 (c : Dev nD) : W3 m ρ c (Proc.devRef .tc main_v43) = asRow128 (m ((c : Thread nD τ).loc main_arg9)) := by
  show StableHlo.after hostOps1 (W2 m ρ c) (Proc.devRef .tc main_v43) = _
  after_results_simp
  rw [W2_arg9]
  rfl

theorem W3_arg8 (c : Dev nD) : W3 m ρ c (Proc.devRef .tc main_arg8) = m ((c : Thread nD τ).loc main_arg8) := by
  show StableHlo.after hostOps1 (W2 m ρ c) (Proc.devRef .tc main_arg8) = _
  after_results_simp
  exact W2_arg8 m ρ c

theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c

theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c

theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg4 m ρ c

theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c

theorem W3_arg12 (c : Dev nD) : W3 m ρ c (Proc.devRef .tc main_arg12) = m ((c : Thread nD τ).loc main_arg12) := by
  show StableHlo.after hostOps1 (W2 m ρ c) (Proc.devRef .tc main_arg12) = _
  after_results_simp
  exact W2_arg12 m ρ c

theorem W3_arg13 (c : Dev nD) : W3 m ρ c (Proc.devRef .tc main_arg13) = m ((c : Thread nD τ).loc main_arg13) := by
  show StableHlo.after hostOps1 (W2 m ρ c) (Proc.devRef .tc main_arg13) = _
  after_results_simp
  exact W2_arg13 m ρ c

theorem W3_arg14 (c : Dev nD) : W3 m ρ c (Proc.devRef .tc main_arg14) = m ((c : Thread nD τ).loc main_arg14) := by
  show StableHlo.after hostOps1 (W2 m ρ c) (Proc.devRef .tc main_arg14) = _
  after_results_simp
  exact W2_arg14 m ρ c

/-! ## At the second region's exit -/

theorem W4_arg3 (c : Dev nD) : W4 m ρ c (Proc.devRef .tc main_arg3) = m ((c : Thread nD τ).loc main_arg3) :=
  (W4_of_ne m ρ c main_arg3 (by decide)).trans (W3_arg3 m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg12 (c : Dev nD) : W4 m ρ c (Proc.devRef .tc main_arg12) = m ((c : Thread nD τ).loc main_arg12) :=
  (W4_of_ne m ρ c main_arg12 (by decide)).trans (W3_arg12 m ρ c)

theorem W4_arg13 (c : Dev nD) : W4 m ρ c (Proc.devRef .tc main_arg13) = m ((c : Thread nD τ).loc main_arg13) :=
  (W4_of_ne m ρ c main_arg13 (by decide)).trans (W3_arg13 m ρ c)

theorem W4_arg14 (c : Dev nD) : W4 m ρ c (Proc.devRef .tc main_arg14) = m ((c : Thread nD τ).loc main_arg14) :=
  (W4_of_ne m ρ c main_arg14 (by decide)).trans (W3_arg14 m ρ c)

/-! ## At the third region's entry -/

theorem W5_v53 (c : Dev nD) : W5 m ρ c (Proc.devRef .tc main_v53) = pick0 (W4 m ρ c (Proc.devRef .tc main_v44)) (m ((c : Thread nD τ).loc main_arg3)) := by
  show StableHlo.after hostOps2 (W4 m ρ c) (Proc.devRef .tc main_v53) = _
  after_results_simp
  rw [W4_arg3]
  rfl

theorem W5_v62 (c : Dev nD) : W5 m ρ c (Proc.devRef .tc main_v62) = pick1 (W4 m ρ c (Proc.devRef .tc main_v44)) (m ((c : Thread nD τ).loc main_arg3)) := by
  show StableHlo.after hostOps2 (W4 m ρ c) (Proc.devRef .tc main_v62) = _
  after_results_simp
  rw [W4_arg3]
  rfl

theorem W5_v63 (c : Dev nD) : W5 m ρ c (Proc.devRef .tc main_v63) = colOf (m ((c : Thread nD τ).loc main_arg4)) := by
  show StableHlo.after hostOps2 (W4 m ρ c) (Proc.devRef .tc main_v63) = _
  after_results_simp
  rw [W4_arg4]
  rfl

theorem W5_v64 (c : Dev nD) : W5 m ρ c (Proc.devRef .tc main_v64) = rowsA (m ((c : Thread nD τ).loc main_arg11)) := by
  show StableHlo.after hostOps2 (W4 m ρ c) (Proc.devRef .tc main_v64) = _
  after_results_simp
  rw [W4_arg11]
  rfl

theorem W5_v65 (c : Dev nD) : W5 m ρ c (Proc.devRef .tc main_v65) = rowsB (m ((c : Thread nD τ).loc main_arg11)) := by
  show StableHlo.after hostOps2 (W4 m ρ c) (Proc.devRef .tc main_v65) = _
  after_results_simp
  rw [W4_arg11]
  rfl

theorem W5_v66 (c : Dev nD) : W5 m ρ c (Proc.devRef .tc main_v66) = rowC (m ((c : Thread nD τ).loc main_arg11)) := by
  show StableHlo.after hostOps2 (W4 m ρ c) (Proc.devRef .tc main_v66) = _
  after_results_simp
  rw [W4_arg11]
  rfl

theorem W5_v67 (c : Dev nD) : W5 m ρ c (Proc.devRef .tc main_v67) = asRow64 (m ((c : Thread nD τ).loc main_arg12)) := by
  show StableHlo.after hostOps2 (W4 m ρ c) (Proc.devRef .tc main_v67) = _
  after_results_simp
  rw [W4_arg12]
  rfl

theorem W5_v68 (c : Dev nD) : W5 m ρ c (Proc.devRef .tc main_v68) = asRow1 (m ((c : Thread nD τ).loc main_arg14)) := by
  show StableHlo.after hostOps2 (W4 m ρ c) (Proc.devRef .tc main_v68) = _
  after_results_simp
  rw [W4_arg14]
  rfl

theorem W5_arg13 (c : Dev nD) : W5 m ρ c (Proc.devRef .tc main_arg13) = m ((c : Thread nD τ).loc main_arg13) := by
  show StableHlo.after hostOps2 (W4 m ρ c) (Proc.devRef .tc main_arg13) = _
  after_results_simp
  exact W4_arg13 m ρ c

/-! ## The result: the third region's output, flattened -/

theorem W7_v70 (c : Dev nD) : W7 m ρ c (Proc.devRef .tc main_v70) = shapeCast _ (W6 m ρ c (Proc.devRef .tc main_v69)) shapeCasts_S500000x1_S500000 := by
  show StableHlo.after hostOps3 (W6 m ρ c) (Proc.devRef .tc main_v70) = _
  after_results_simp <;> rfl

end Cert.KernelIdeal.Boundaries

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«175854_j32607391711951_2_alg».proof.Proof.LibDenseLayer
import proofs.«175854_j32607391711951_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.Net.lean ====
/-
  The dense stages of the network as plain functions on arrays of extended reals, for any number of rows.

  * `prod x w` is the matrix product: entry `(p, q)` is `∑ k, x (p, k) · w (k, q)`.
  * `gc a x w w' b` is the dense stage of a graph convolution, `a · w + b + x · w'` with the bias `b` a function of the
    column: entry `(p, q)` is `((∑ k, a (p, k) · w (k, q)) + b q) + ∑ k, x (p, k) · w' (k, q)`.
  * `hid zs zd e ws wd ww b` is the decoder's hidden layer on the three column groups of its input kept apart,
    `max (zs · ws + zd · wd + e ⊗ ww + b) 0`: the last group is ONE column `e`, whose product with the one weight row `ww` is
    the outer product, entry `(p, q)` being `e (p, 0) · ww q`.
  * `dec … w₂ b₂` is the decoder: the hidden layer times the `[N, 1]` matrix `w₂`, plus the scalar `b₂`.

  Every entry of any of them depends on ONE row of the row-indexed operands, so a block of consecutive rows of the result is
  the same function of that block of rows (`gc_rows`, `dec_rows`): evaluating block of rows by block of rows gives the whole.
-/
import proofs.«175854_j32607391711951_2_alg».proof.Proof.LibDenseLayer
import proofs.«175854_j32607391711951_2_alg».proof.Proof.LibLayerForms
import Idealize.ShloMosaic.Lib.ValueIdx

noncomputable section

open scoped BigOperators

namespace Cert.Net

open Idealize.ShloMosaic Idealize.ShloMosaic.ValueIdx Cert.DenseLayer Cert.LayerForms

/-- The matrix product of an `[M, K]` and a `[K, N]` array. -/
def prod {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem prod_ix2 {M K N : ℕ} (x : (⟨2, ![M, K]⟩ : Shape).Idx → EReal) (w : (⟨2, ![K, N]⟩ : Shape).Idx → EReal)
    (p : Fin M) (q : Fin N) : prod x w (ix2 p q) = ∑ k : Fin K, x (ix2 p k) * w (ix2 k q) := rfl

/-- Row `p` of a product on a block of rows is row `P` of the product on the whole array, when row `p` of the block is
    row `P` of the array. -/
theorem prod_rows {m M K N : ℕ} (xb : (⟨2, ![m, K]⟩ : Shape).Idx → EReal) (x : (⟨2, ![M, K]⟩ : Shape).Idx → EReal)
    (w : (⟨2, ![K, N]⟩ : Shape).Idx → EReal) (p : Fin m) (P : Fin M) (q : Fin N)
    (h : ∀ k : Fin K, xb (ix2 p k) = x (ix2 P k)) : prod xb w (ix2 p q) = prod x w (ix2 P q) := by
  rw [prod_ix2, prod_ix2]
  exact Finset.sum_congr rfl fun k _ => by rw [h k]

/-- The dense stage of a graph convolution: `a · w + b + x · w'`. -/
def gc {M K N : ℕ} (a x : (⟨2, ![M, K]⟩ : Shape).Idx → EReal) (w w' : (⟨2, ![K, N]⟩ : Shape).Idx → EReal)
    (b : Fin N → EReal) : (⟨2, ![M, N]⟩ : Shape).Idx → EReal :=
  fun i => dense a w b i + prod x w' i

theorem gc_ix2 {M K N : ℕ} (a x : (⟨2, ![M, K]⟩ : Shape).Idx → EReal) (w w' : (⟨2, ![K, N]⟩ : Shape).Idx → EReal)
    (b : Fin N → EReal) (p : Fin M) (q : Fin N) :
    gc a x w w' b (ix2 p q) = dense a w b (ix2 p q) + prod x w' (ix2 p q) := rfl

/-- A block of rows of the stage is the stage on that block of rows of its two row-indexed operands. -/
theorem gc_rows {m M K N : ℕ} (ab xb : (⟨2, ![m, K]⟩ : Shape).Idx → EReal) (a x : (⟨2, ![M, K]⟩ : Shape).Idx → EReal)
    (w w' : (⟨2, ![K, N]⟩ : Shape).Idx → EReal) (b : Fin N → EReal) (p : Fin m) (P : Fin M) (q : Fin N)
    (ha : ∀ k : Fin K, ab (ix2 p k) = a (ix2 P k)) (hx : ∀ k : Fin K, xb (ix2 p k) = x (ix2 P k)) :
    gc ab xb w w' b (ix2 p q) = gc a x w w' b (ix2 P q) := by
  rw [gc_ix2, gc_ix2, dense_ix2, dense_ix2, denseAt_rows a ab w b p P q ha, prod_rows xb x w' p P q hx]

/-- The decoder's hidden layer, on the three column groups of its input kept apart. -/
def hid {M K N : ℕ} (zs zd : (⟨2, ![M, K]⟩ : Shape).Idx → EReal) (e : (⟨2, ![M, 1]⟩ : Shape).Idx → EReal)
    (ws wd : (⟨2, ![K, N]⟩ : Shape).Idx → EReal) (ww b : Fin N → EReal) : (⟨2, ![M, N]⟩ : Shape).Idx → EReal :=
  fun i => max (((prod zs ws i + prod zd wd i) + e (ix2 (i 0) (0 : Fin 1)) * ww (i 1)) + b (i 1)) 0

theorem hid_ix2 {M K N : ℕ} (zs zd : (⟨2, ![M, K]⟩ : Shape).Idx → EReal) (e : (⟨2, ![M, 1]⟩ : Shape).Idx → EReal)
    (ws wd : (⟨2, ![K, N]⟩ : Shape).Idx → EReal) (ww b : Fin N → EReal) (p : Fin M) (q : Fin N) :
    hid zs zd e ws wd ww b (ix2 p q)
      = max (((prod zs ws (ix2 p q) + prod zd wd (ix2 p q)) + e (ix2 p (0 : Fin 1)) * ww q) + b q) 0 := rfl

theorem hid_rows {m M K N : ℕ} (zsb zdb : (⟨2, ![m, K]⟩ : Shape).Idx → EReal) (eb : (⟨2, ![m, 1]⟩ : Shape).Idx → EReal)
    (zs zd : (⟨2, ![M, K]⟩ : Shape).Idx → EReal) (e : (⟨2, ![M, 1]⟩ : Shape).Idx → EReal)
    (ws wd : (⟨2, ![K, N]⟩ : Shape).Idx → EReal) (ww b : Fin N → EReal) (p : Fin m) (P : Fin M) (q : Fin N)
    (hs : ∀ k : Fin K, zsb (ix2 p k) = zs (ix2 P k)) (hd : ∀ k : Fin K, zdb (ix2 p k) = zd (ix2 P k))
    (he : eb (ix2 p (0 : Fin 1)) = e (ix2 P (0 : Fin 1))) :
    hid zsb zdb eb ws wd ww b (ix2 p q) = hid zs zd e ws wd ww b (ix2 P q) := by
  rw [hid_ix2, hid_ix2, prod_rows zsb zs ws p P q hs, prod_rows zdb zd wd p P q hd, he]

/-- The decoder: the hidden layer times an `[N, 1]` matrix, plus a scalar. -/
def dec {M K N : ℕ} (zs zd : (⟨2, ![M, K]⟩ : Shape).Idx → EReal) (e : (⟨2, ![M, 1]⟩ : Shape).Idx → EReal)
    (ws wd : (⟨2, ![K, N]⟩ : Shape).Idx → EReal) (ww b : Fin N → EReal) (w₂ : (⟨2, ![N, 1]⟩ : Shape).Idx → EReal)
    (b₂ : EReal) : (⟨2, ![M, 1]⟩ : Shape).Idx → EReal :=
  fun i => prod (hid zs zd e ws wd ww b) w₂ i + b₂

theorem dec_ix2 {M K N : ℕ} (zs zd : (⟨2, ![M, K]⟩ : Shape).Idx → EReal) (e : (⟨2, ![M, 1]⟩ : Shape).Idx → EReal)
    (ws wd : (⟨2, ![K, N]⟩ : Shape).Idx → EReal) (ww b : Fin N → EReal) (w₂ : (⟨2, ![N, 1]⟩ : Shape).Idx → EReal)
    (b₂ : EReal) (p : Fin M) (q : Fin 1) :
    dec zs zd e ws wd ww b w₂ b₂ (ix2 p q) = prod (hid zs zd e ws wd ww b) w₂ (ix2 p q) + b₂ := rfl

/-- A block of rows of the decoder's output is the decoder on that block of rows of its three row-indexed operands. -/
theorem dec_rows {m M K N : ℕ} (zsb zdb : (⟨2, ![m, K]⟩ : Shape).Idx → EReal) (eb : (⟨2, ![m, 1]⟩ : Shape).Idx → EReal)
    (zs zd : (⟨2, ![M, K]⟩ : Shape).Idx → EReal) (e : (⟨2, ![M, 1]⟩ : Shape).Idx → EReal)
    (ws wd : (⟨2, ![K, N]⟩ : Shape).Idx → EReal) (ww b : Fin N → EReal) (w₂ : (⟨2, ![N, 1]⟩ : Shape).Idx → EReal)
    (b₂ : EReal) (p : Fin m) (P : Fin M) (q : Fin 1)
    (hs : ∀ k : Fin K, zsb (ix2 p k) = zs (ix2 P k)) (hd : ∀ k : Fin K, zdb (ix2 p k) = zd (ix2 P k))
    (he : eb (ix2 p (0 : Fin 1)) = e (ix2 P (0 : Fin 1))) :
    dec zsb zdb eb ws wd ww b w₂ b₂ (ix2 p q) = dec zs zd e ws wd ww b w₂ b₂ (ix2 P q) := by
  rw [dec_ix2, dec_ix2]
  exact congrArg (· + b₂) (prod_rows _ _ w₂ p P q fun k => hid_rows zsb zdb eb zs zd e ws wd ww b p P k hs hd he)

end Cert.Net

end
-- ==== Proof.LibRowBias.lean ====
/-
  The two dense steps of a graph-convolution layer on the extended reals, in the spellings a vector unit and a host
  program give them.

  `dense x w b` is `x · w + b` with the bias `b` a function of the column. A vector unit that is handed the bias as
  a `[1, N]` row forms it as a matrix product into a zero accumulator plus the row broadcast over the rows
  (`vec_dense_row`); its two product operands may first have passed through changes of float format or of layout that
  leave every entry as it was, so the lemma takes operands that agree with `x` and `w` entry by entry. The host program
  forms the product by a general dot product and adds the bias vector broadcast over the rows (`host_dense`); with
  the zero row for a bias the layer is the bare product (`dense_zero_row`: `s + 0 = s` on the extended reals).

  `reluB a b` is `max (a + b) 0`, the bias added to every row and the rectifier applied, again in both spellings
  (`vec_reluB`, `host_reluB`). A `[1, N]` row that is a bias vector reshaped is, as a function of the column, that vector
  (`rowOf_cast`).
-/
import proofs.«175854_j32607391711951_2_alg».proof.Proof.LibDenseLayer
import proofs.«175854_j32607391711951_2_alg».proof.Proof.LibPlainMatmul
import proofs.«175854_j32607391711951_2_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRowBias

open Idealize.ShloMosaic Idealize.ShloMosaic.ValueIdx Cert.DenseLayer Cert.LayerForms

/-- A `[1, N]` row as a function of the column. -/
def rowOf {N : ℕ} (b : (⟨2, ![1, N]⟩ : Shape).Idx → EReal) : Fin N → EReal := fun q => b (ix2 (0 : Fin 1) q)

/-- A bias added to every row, then the rectifier: entry `(p, q)` is `max (a (p, q) + b q) 0`. -/
def reluB {M N : ℕ} (a : (⟨2, ![M, N]⟩ : Shape).Idx → EReal) (b : Fin N → EReal) : (⟨2, ![M, N]⟩ : Shape).Idx → EReal :=
  fun i => max (a i + b (i 1)) 0

theorem reluB_ix2 {M N : ℕ} (a : (⟨2, ![M, N]⟩ : Shape).Idx → EReal) (b : Fin N → EReal) (p : Fin M) (q : Fin N) :
    reluB a b (ix2 p q) = max (a (ix2 p q) + b q) 0 := rfl

/-- An entry of a dense layer on a block of rows, a copy of the weights and a copy of the bias is the entry of the dense
    layer on the whole arrays in the row the block's row came from: the entry depends on that one row of the operand, on
    one column of the weights and on one entry of the bias. -/
theorem dense_block_apply {m M K N : ℕ} (xb : (⟨2, ![m, K]⟩ : Shape).Idx → EReal) (x : (⟨2, ![M, K]⟩ : Shape).Idx → EReal)
    (wb w : (⟨2, ![K, N]⟩ : Shape).Idx → EReal) (bb b : Fin N → EReal) (p : Fin m) (P : Fin M) (q : Fin N)
    (hx : ∀ k : Fin K, xb (ix2 p k) = x (ix2 P k)) (hw : ∀ k : Fin K, wb (ix2 k q) = w (ix2 k q)) (hb : bb q = b q) :
    dense xb wb bb (ix2 p q) = dense x w b (ix2 P q) := by
  show (∑ k : Fin K, xb (ix2 p k) * wb (ix2 k q)) + bb q = (∑ k : Fin K, x (ix2 P k) * w (ix2 k q)) + b q
  rw [hb]
  exact congrArg (· + b q) (Finset.sum_congr rfl fun k _ => by rw [hx, hw])

/-- The same for the bias-and-rectifier step: its entry `(p, q)` depends on entry `(p, q)` of the operand and on the bias
    at `q` only. -/
theorem reluB_block_apply {m M N : ℕ} (ab : (⟨2, ![m, N]⟩ : Shape).Idx → EReal) (a : (⟨2, ![M, N]⟩ : Shape).Idx → EReal)
    (bb b : Fin N → EReal) (p : Fin m) (P : Fin M) (q : Fin N)
    (ha : ab (ix2 p q) = a (ix2 P q)) (hb : bb q = b q) :
    reluB ab bb (ix2 p q) = reluB a b (ix2 P q) := by
  show max (ab (ix2 p q) + bb q) 0 = max (a (ix2 P q) + b q) 0
  rw [ha, hb]

/-- A bias vector reshaped to a `[1, N]` row is, column by column, the vector. -/
theorem rowOf_cast {N : ℕ} (b : FVec Ideal ⟨1, ![N]⟩ .f32) (hc : (⟨1, ![N]⟩ : Shape).ShapeCasts ⟨2, ![1, N]⟩) :
    rowOf (shapeCast ⟨2, ![1, N]⟩ b hc) = colBias b := by
  funext q
  show shapeCast ⟨2, ![1, N]⟩ b hc (ix2 (0 : Fin 1) q) = b (ix1 q)
  rw [shapeCast_a_1a_apply]

/-- The layer as a vector unit spells it, the bias a `[1, N]` row, the product's operands any arrays that agree entry by
    entry with `x` and `w`. -/
theorem vec_dense_row {M K N : ℕ} (D : DotDims ⟨2, ![M, K]⟩ ⟨2, ![K, N]⟩ ⟨2, ![M, N]⟩) (hD : D = DotDims.plain M K N)
    (prec : Option ContractPrecision) {φ₁ φ₂ : FTy} (x' : FVec Ideal ⟨2, ![M, K]⟩ φ₁) (w' : FVec Ideal ⟨2, ![K, N]⟩ φ₂)
    (x : (⟨2, ![M, K]⟩ : Shape).Idx → EReal) (w : (⟨2, ![K, N]⟩ : Shape).Idx → EReal)
    (hx : ∀ i, x' i = x i) (hw : ∀ i, w' i = w i)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x' w' (constant ⟨2, ![M, N]⟩ .f32 0x00000000#32))
        (broadcastTo ⟨2, ![M, N]⟩ (shapeCast ⟨2, ![1, N]⟩ b hc) hb)
      = dense x w (rowOf b) := by
  funext i
  obtain ⟨p, q, rfl⟩ : ∃ (p : Fin M) (q : Fin N), i = ix2 p q := ⟨i 0, i 1, eq_ix2 i⟩
  show FloatOps.matmul D prec x' w' (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]
  exact congrArg (· + b (ix2 (0 : Fin 1) q)) (Finset.sum_congr rfl fun k _ => by rw [hx, hw])

/-- The bias row and the rectifier as a vector unit spells them. -/
theorem vec_reluB {M N : ℕ} (a : FVec Ideal ⟨2, ![M, N]⟩ .f32) (b : FVec Ideal ⟨2, ![1, N]⟩ .f32)
    (hs : (⟨2, ![M, N]⟩ : Shape).ShapeCasts ⟨2, ![M, N]⟩) (hc : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a hs) (broadcastTo ⟨2, ![M, N]⟩ (shapeCast ⟨2, ![1, N]⟩ b hc) hb))
        (broadcast ⟨2, ![M, N]⟩ (Scalar.ofBits (F := Ideal) .f32 0x00000000#32))
      = reluB a (rowOf b) := by
  funext i
  obtain ⟨p, q, rfl⟩ : ∃ (p : Fin M) (q : Fin N), i = ix2 p q := ⟨i 0, i 1, eq_ix2 i⟩
  show max (shapeCast ⟨2, ![M, N]⟩ a hs (ix2 p q) + broadcastTo ⟨2, ![M, N]⟩ (shapeCast ⟨2, ![1, N]⟩ b hc) hb (ix2 p q))
      (Ideal.ofBits .f32 0x00000000#32) = max (a (ix2 p q) + b (ix2 (0 : Fin 1) q)) 0
  rw [shapeCast_self, broadcastTo_1b_ab_apply, shapeCast_self, Ideal.ofBits_zero_f32]

/-- The layer as a host program spells it: `dense` of the bias vector. -/
theorem host_dense {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) :=
  host_layer D hD prec x w b h1 h2

/-- With the zero row for a bias the layer is the bare product, which is the host's general dot product. -/
theorem dense_zero_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (h0 : (⟨0, ![]⟩ : Shape).BroadcastsInDim ⟨2, ![1, N]⟩ ![]) :
    dense x w (rowOf (broadcastInDim ⟨2, ![1, N]⟩ ![] h0 (constant (F := Ideal) ⟨0, ![]⟩ .f32 0x00000000#32)))
      = Host.dotGeneral D prec x w := by
  funext i
  obtain ⟨p, q, rfl⟩ : ∃ (p : Fin M) (q : Fin N), i = ix2 p q := ⟨i 0, i 1, eq_ix2 i⟩
  show (∑ k : Fin K, x (ix2 p k) * w (ix2 k q)) + Ideal.ofBits .f32 0x00000000#32
    = FloatOps.dotGeneral D prec .single x w (ix2 p q)
  rw [dotGeneral_plain_apply D hD, Ideal.ofBits_zero_f32, add_zero]

/-- A bias vector broadcast to a row along a new leading axis and that row broadcast over the rows, at `(p, q)`, is the
    vector at `q`. -/
theorem bcast_rows_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split
    · have := q.isLt; omega
    · rfl
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ => exact hq
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ => exact hq
  rw [e2, e1]

/-- The bias and the rectifier as a host program spells them. -/
theorem host_reluB {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluB a (colBias b) := by
  funext i
  obtain ⟨p, q, rfl⟩ : ∃ (p : Fin M) (q : Fin N), i = ix2 p q := ⟨i 0, i 1, eq_ix2 i⟩
  show max (a (ix2 p q) + broadcastInDim ⟨2, ![M, N]⟩ ![0, 1] h2 (broadcastInDim ⟨2, ![1, N]⟩ ![1] h1 b) (ix2 p q))
      (Ideal.ofBits .f32 0x00000000#32) = max (a (ix2 p q) + b (ix1 q)) 0
  rw [bcast_rows_apply, Ideal.ofBits_zero_f32]

end Cert.LibRowBias

end
-- ==== Proof.Closed.lean ====
/-
  The network as one function of its fifteen arguments: two graph-convolution layers on the node features, then the
  decoder on the label edges.

    * `hOf x ei ew W W' b = max (agg x ei ew · W + b + x · W') 0`, the first layer;
    * `zOf h ei ew W W' b = agg h ei ew · W + b + h · W'`, the second layer;
    * `outOf z eli w Wd1 bd1 Wd2 bd2`: the rows of `z` at the label edges' two endpoints and the explicit weight `w` as
      a column go through the decoder — hidden layer with the three row groups of `Wd1`, output layer `Wd2`, `bd2` —
      and the resulting column is flattened to a vector.
-/
import proofs.«175854_j32607391711951_2_alg».proof.Proof.Net
import proofs.«175854_j32607391711951_2_alg».proof.Proof.LibRowBias
import proofs.«175854_j32607391711951_2_alg».proof.Proof.Glue
import Idealize.ShloMosaic.Lib.ValueIdx
import Idealize.ShloMosaic.Lib.ValueLayout

noncomputable section

namespace Cert.KernelIdeal.Glue

open Cert.KernelIdeal Cert.KernelIdeal.Gen Idealize.ShloMosaic Idealize.ShloMosaic.TcCoe Idealize.ShloMosaic.ValueIdx
open Cert.Net Cert.LayerForms Cert.LibRowBias

/-- A bias vector laid out as a one-row matrix is, column by column, the vector. -/
theorem rowOf_asRow128 (b : FA S128) : rowOf (asRow128 b) = colBias b := rowOf_cast b shapeCasts_S128_S1x128
theorem rowOf_asRow64 (b : FA S64) : rowOf (asRow64 b) = colBias b := rowOf_cast b shapeCasts_S64_S1x64
/-- A one-entry vector laid out as a `[1, 1]` matrix has that entry. -/
theorem asRow1_apply (b : FA S1) : asRow1 b (ix2 (0 : Fin 1) (0 : Fin 1)) = b (ix1 (0 : Fin 1)) :=
  shapeCast_a_1a_apply b shapeCasts_S1_S1x1 0 0

/-- The first graph-convolution layer. -/
def hOf (x : FA S100000x128) (ei : IA S2x1600000) (ew : FA S1600000) (W W' : FA S128x128) (b : FA S128) : FA S100000x128 :=
  relu (gc (M := 100000) (K := 128) (N := 128) (agg x ei ew) x W W' (colBias b))

/-- The second graph-convolution layer. -/
def zOf (h : FA S100000x128) (ei : IA S2x1600000) (ew : FA S1600000) (W W' : FA S128x128) (b : FA S128) : FA S100000x128 :=
  gc (M := 100000) (K := 128) (N := 128) (agg h ei ew) h W W' (colBias b)

/-- The decoder's output column. -/
def decOf (z : FA S100000x128) (eli : IA S2x500000) (w : FA S500000) (Wd1 : FA S257x64) (bd1 : FA S64) (Wd2 : FA S64x1)
    (bd2 : FA S1) : FA S500000x1 :=
  dec (M := 500000) (K := 128) (N := 64) (pick0 z eli) (pick1 z eli) (colOf w) (rowsA Wd1) (rowsB Wd1) (rowOf (rowC Wd1))
    (colBias bd1) Wd2 (bd2 (ix1 (0 : Fin 1)))

/-- The network's result. -/
def outOf (z : FA S100000x128) (eli : IA S2x500000) (w : FA S500000) (Wd1 : FA S257x64) (bd1 : FA S64) (Wd2 : FA S64x1)
    (bd2 : FA S1) : FA S500000 :=
  shapeCast _ (decOf z eli w Wd1 bd1 Wd2 bd2) shapeCasts_S500000x1_S500000

end Cert.KernelIdeal.Glue

end
-- ==== Proof.GcValue.lean ====
/-
  The two dense stages of the graph convolution, from blocks of rows to whole arrays.

  Each stage forms `a · w + b + x · w'` (the first stage followed by the rectifier) on one block of 5000 consecutive rows
  of its two row-indexed operands `a` and `x` per grid point, with the weights `w`, `w'` and the bias row `b` read whole
  at every point, and writes the block of rows back at every point. An entry of the stage depends on one row of `a` and
  of `x` only, so the block a point writes is that block of rows of the stage on the whole arrays; the 20 blocks tile
  the 100000 rows, so the output array ends holding the stage on the whole arrays.
-/
import proofs.«175854_j32607391711951_2_alg».proof.Proof.Gen.KernelIdeal.Frame
import proofs.«175854_j32607391711951_2_alg».proof.Proof.Net
import proofs.«175854_j32607391711951_2_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GcValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLayer Cert.LayerForms Cert.Net Cert.LibRowBias

variable (V : (c : Dev nD) → (b : Ref sig .tc) → Buf (Elt Ideal) ((c : Thread nD τ).loc b))

/-- The offsets of a block read whole. -/
theorem zero_offsets : (![0, 0] : Fin 2 → Nat) = fun _ => 0 := funext fun a => by fin_cases a <;> rfl

/-! ## The first stage: what one point computes -/

/-- The first stage's arithmetic on one block of rows: the rectifier of the stage on that block. The operands of the two
    products pass through changes of float format and of layout that leave every entry as it was. -/
theorem pay0_eq (x0 x1 : Vec Ideal S5000x128 .f32) (x2 x4 : Vec Ideal S128x128 .f32) (x3 : Vec Ideal S1x128 .f32) :
    k0_pay1 (F := Ideal) x0 x1 x2 x4 x3
      = relu (gc (M := 5000) (K := 128) (N := 128) x0 x1 x2 x4 (rowOf x3)) := by
  unfold k0_pay1
  refine (vec_relu _).trans (congrArg relu ?_)
  rw [vec_dense_row (M := 5000) (K := 128) (N := 128) dot_S5000x128_S128x128_S5000x128_1_0_0_1_n_n rfl none
    (truncf .bf16 (shapeCast S5000x128 x0 shapeCasts_S5000x128_S5000x128) bitsLt_bf16_f32) (truncf .bf16 x2 bitsLt_bf16_f32)
    x0 x2 (fun i => by rw [truncf_apply, shapeCast_self]) (fun i => rfl) x3 shapeCasts_S1x128_S1x128
    broadcasts_S1x128_S5000x128]
  funext i
  obtain ⟨p, q, rfl⟩ : ∃ (p : Fin 5000) (q : Fin 128), i = ix2 p q := ⟨i 0, i 1, eq_ix2 i⟩
  show dense x0 x2 (rowOf x3) (ix2 p q)
      + FloatOps.matmul (F := Ideal) dot_S5000x128_S128x128_S5000x128_1_0_0_1_n_n none (truncf .bf16 x1 bitsLt_bf16_f32)
          (truncf .bf16 x4 bitsLt_bf16_f32) (constant ⟨2, ![5000, 128]⟩ .f32 0x00000000#32) (ix2 p q) = _
  rw [Cert.LibPlainMatmul.matmul_plain_zero_apply (M := 5000) (K := 128) (N := 128) dot_S5000x128_S128x128_S5000x128_1_0_0_1_n_n rfl]
  rfl

/-! ## The first stage: the blocks a point reads -/

/-- The block indices of the six windows at a point, decided over the grid: the three row-blocked windows (the two
    row-indexed operands and the result) are at block `(t, 0)`, the weights and the bias row at block `(0, 0)`. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated features' block at point `t` is row `5000 t + p` of the array. -/
theorem agg_block0 (c : Dev nD) (t : Fin cfg0.N) (p : Fin 5000) (k : Fin 128) (P : Fin 100000)
    (hP : P.val = 5000 * t.val + p.val) :
    (iblk0 (F := Ideal) V c 0 t : S5000x128.Idx → EReal) (ix2 p k) = (V c main_v25 : S100000x128.Idx → EReal) (ix2 P k) := by
  obtain ⟨e00, e01, -⟩ := block_index0 t
  show V c main_v25 (((cfg0.win 0).blk t).view.emb (ix2 p k)) = V c main_v25 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- The same for the node features. -/
theorem feat_block0 (c : Dev nD) (t : Fin cfg0.N) (p : Fin 5000) (k : Fin 128) (P : Fin 100000)
    (hP : P.val = 5000 * t.val + p.val) :
    (iblk0 (F := Ideal) V c 1 t : S5000x128.Idx → EReal) (ix2 p k) = (V c main_arg0 : S100000x128.Idx → EReal) (ix2 P k) := by
  obtain ⟨-, -, e10, e11, -⟩ := block_index0 t
  show V c main_arg0 (((cfg0.win 1).blk t).view.emb (ix2 p k)) = V c main_arg0 (ix2 P k)
  refine congrArg _ (funext fun a => Fin.ext ?_)
  match a with
  | ⟨0, _⟩ => show win0_1.index t (0 : Fin 2) * 5000 + 1 * p.val = P.val; omega
  | ⟨1, _⟩ => show win0_1.index t (1 : Fin 2) * 128 + 1 * k.val = k.val; omega

/-- The block of the first weight matrix at any point is the matrix. -/
theorem wrel_block0 (c : Dev nD) (t : Fin cfg0.N) :
    (iblk0 (F := Ideal) V c 2 t : S128x128.Idx → EReal) = (V c main_arg5 : S128x128.Idx → EReal) := by
  obtain ⟨-, -, -, -, e20, e21, -⟩ := block_index0 t
  funext y
  show V c main_arg5 (((cfg0.win 2).blk t).view.emb y) = V c main_arg5 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The block of the bias row at any point is the row. -/
theorem bias_block0 (c : Dev nD) (t : Fin cfg0.N) :
    (iblk0 (F := Ideal) V c 3 t : S1x128.Idx → EReal) = (V c main_v26 : S1x128.Idx → EReal) := by
  obtain ⟨-, -, -, -, -, -, e30, e31, -⟩ := block_index0 t
  funext y
  show V c main_v26 (((cfg0.win 3).blk t).view.emb y) = V c main_v26 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The block of the second weight matrix at any point is the matrix. -/
theorem wroot_block0 (c : Dev nD) (t : Fin cfg0.N) :
    (iblk0 (F := Ideal) V c 4 t : S128x128.Idx → EReal) = (V c main_arg7 : S128x128.Idx → EReal) := by
  obtain ⟨-, -, -, -, -, -, -, -, e40, e41, -⟩ := block_index0 t
  funext y
  show V c main_arg7 (((cfg0.win 4).blk t).view.emb y) = V c main_arg7 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-! ## The first stage: from blocks to the array -/

/-- The first stage on the whole arrays as the region finds them. -/
abbrev stage0 (c : Dev nD) : S100000x128.Idx → EReal :=
  relu (gc (M := 100000) (K := 128) (N := 128) (V c main_v25 : S100000x128.Idx → EReal) (V c main_arg0 : S100000x128.Idx → EReal)
    (V c main_arg5 : S128x128.Idx → EReal) (V c main_arg7 : S128x128.Idx → EReal) (rowOf (V c main_v26 : S1x128.Idx → EReal)))

/-- What point `t` writes back is block `t` of the stage on the whole arrays. -/
theorem flushed0_eq (c : Dev nD) (t : Fin cfg0.N) :
    (dat0 (F := Ideal) V c).flushed 5 t = ((cfg0.win 5).blk t).view.read (Elt Ideal) (stage0 V c) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [pay0_eq, wrel_block0, bias_block0, wroot_block0]
  obtain ⟨-, -, -, -, -, -, -, -, -, -, e50, e51⟩ := block_index0 t
  funext j
  have hN : cfg0.N = 20 := N_0
  have ht : t.val < 20 := hN ▸ t.isLt
  have hj0 : (j 0).val < 5000 := (j 0).isLt
  have hj1 : (j 1).val < 128 := (j 1).isLt
  have hemb : ((cfg0.win 5).blk t).view.emb j
      = ix2 (⟨5000 * t.val + (j 0).val, by omega⟩ : Fin 100000) (⟨(j 1).val, hj1⟩ : Fin 128) := by
    funext a; apply Fin.ext
    match a with
    | ⟨0, _⟩ => show win0_5.index t (0 : Fin 2) * 5000 + 1 * (j 0).val = 5000 * t.val + (j 0).val; omega
    | ⟨1, _⟩ => show win0_5.index t (1 : Fin 2) * 128 + 1 * (j 1).val = (j 1).val; omega
  rw [View.read_apply, hemb]
  show max (gc (M := 5000) (K := 128) (N := 128) (iblk0 (F := Ideal) V c 0 t) (iblk0 (F := Ideal) V c 1 t) _ _ _
      (ix2 (⟨(j 0).val, hj0⟩ : Fin 5000) (⟨(j 1).val, hj1⟩ : Fin 128))) 0 = max (gc _ _ _ _ _ (ix2 _ _)) 0
  rw [gc_rows (iblk0 (F := Ideal) V c 0 t) (iblk0 (F := Ideal) V c 1 t) (V c main_v25 : S100000x128.Idx → EReal)
    (V c main_arg0 : S100000x128.Idx → EReal) _ _ _ ⟨(j 0).val, hj0⟩ ⟨5000 * t.val + (j 0).val, by omega⟩ ⟨(j 1).val, hj1⟩
    (fun k => agg_block0 V c t _ k _ rfl) (fun k => feat_block0 V c t _ k _ rfl)]

/-- An index of the array is in point `t`'s block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v27).slice (win0_5.rect t)).set ↔ _
  rw [View.set_slice_whole, Rect.mem_set_unit]
  exact Iff.rfl

/-- The blocks tile the array: row `r` is in the block of point `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_block0]
  obtain ⟨-, -, -, -, -, -, -, -, -, -, e50, e51⟩ := block_index0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e51]; omega

/-- The first stage's output array after the region: the rectifier of the stage on the whole arrays. -/
theorem final0 (c : Dev nD) : (dat0 (F := Ideal) V c).arrAt 5 cfg0.N
    = relu (gc (M := 100000) (K := 128) (N := 128) (V c main_v25) (V c main_arg0) (V c main_arg5) (V c main_arg7)
        (rowOf (V c main_v26))) :=
  (dat0 (F := Ideal) V c).arrAt_eq_of_cover 5 (stage0 V c) (fun t _ => flushed0_eq V c t) cover0

/-! ## The second stage: what one point computes -/

/-- The second stage's arithmetic on one block of rows: the stage on that block, with no rectifier. -/
theorem pay1_eq (x0 x1 : Vec Ideal S5000x128 .f32) (x2 x4 : Vec Ideal S128x128 .f32) (x3 : Vec Ideal S1x128 .f32) :
    k1_pay1 (F := Ideal) x0 x1 x2 x4 x3 = gc (M := 5000) (K := 128) (N := 128) x0 x1 x2 x4 (rowOf x3) := by
  unfold k1_pay1
  dsimp only
  rw [vec_dense_row (M := 5000) (K := 128) (N := 128) dot_S5000x128_S128x128_S5000x128_1_0_0_1_n_n rfl none
    (truncf .bf16 (shapeCast S5000x128 x0 shapeCasts_S5000x128_S5000x128) bitsLt_bf16_f32) (truncf .bf16 x2 bitsLt_bf16_f32)
    x0 x2 (fun i => by rw [truncf_apply, shapeCast_self]) (fun i => rfl) x3 shapeCasts_S1x128_S1x128
    broadcasts_S1x128_S5000x128]
  funext i
  obtain ⟨p, q, rfl⟩ : ∃ (p : Fin 5000) (q : Fin 128), i = ix2 p q := ⟨i 0, i 1, eq_ix2 i⟩
  show dense x0 x2 (rowOf x3) (ix2 p q)
      + FloatOps.matmul (F := Ideal) dot_S5000x128_S128x128_S5000x128_1_0_0_1_n_n none
          (truncf .bf16 (shapeCast S5000x128 x1 shapeCasts_S5000x128_S5000x128) bitsLt_bf16_f32)
          (truncf .bf16 x4 bitsLt_bf16_f32) (constant ⟨2, ![5000, 128]⟩ .f32 0x00000000#32) (ix2 p q) = _
  rw [Cert.LibPlainMatmul.matmul_plain_zero_apply (M := 5000) (K := 128) (N := 128) dot_S5000x128_S128x128_S5000x128_1_0_0_1_n_n rfl,
    shapeCast_self]
  rfl

/-! ## The second stage: the blocks a point reads -/

/-- The block indices of the six windows at a point, decided over the grid: the three row-blocked windows (the two
    row-indexed operands and the result) are at block `(t, 0)`, the weights and the bias row at block `(0, 0)`. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated hidden features' block at point `t` is row `5000 t + p` of the array. -/
theorem agg_block1 (c : Dev nD) (t : Fin cfg1.N) (p : Fin 5000) (k : Fin 128) (P : Fin 100000)
    (hP : P.val = 5000 * t.val + p.val) :
    (iblk1 (F := Ideal) V c 0 t : S5000x128.Idx → EReal) (ix2 p k) = (V c main_v42 : S100000x128.Idx → EReal) (ix2 P k) := by
  obtain ⟨e00, e01, -⟩ := block_index1 t
  show V c main_v42 (((cfg1.win 0).blk t).view.emb (ix2 p k)) = V c main_v42 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- The same for the hidden features (the first stage's output). -/
theorem feat_block1 (c : Dev nD) (t : Fin cfg1.N) (p : Fin 5000) (k : Fin 128) (P : Fin 100000)
    (hP : P.val = 5000 * t.val + p.val) :
    (iblk1 (F := Ideal) V c 1 t : S5000x128.Idx → EReal) (ix2 p k) = (V c main_v27 : S100000x128.Idx → EReal) (ix2 P k) := by
  obtain ⟨-, -, e10, e11, -⟩ := block_index1 t
  show V c main_v27 (((cfg1.win 1).blk t).view.emb (ix2 p k)) = V c main_v27 (ix2 P k)
  refine congrArg _ (funext fun a => Fin.ext ?_)
  match a with
  | ⟨0, _⟩ => show win1_1.index t (0 : Fin 2) * 5000 + 1 * p.val = P.val; omega
  | ⟨1, _⟩ => show win1_1.index t (1 : Fin 2) * 128 + 1 * k.val = k.val; omega

/-- The block of the first weight matrix at any point is the matrix. -/
theorem wrel_block1 (c : Dev nD) (t : Fin cfg1.N) :
    (iblk1 (F := Ideal) V c 2 t : S128x128.Idx → EReal) = (V c main_arg8 : S128x128.Idx → EReal) := by
  obtain ⟨-, -, -, -, e20, e21, -⟩ := block_index1 t
  funext y
  show V c main_arg8 (((cfg1.win 2).blk t).view.emb y) = V c main_arg8 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The block of the bias row at any point is the row. -/
theorem bias_block1 (c : Dev nD) (t : Fin cfg1.N) :
    (iblk1 (F := Ideal) V c 3 t : S1x128.Idx → EReal) = (V c main_v43 : S1x128.Idx → EReal) := by
  obtain ⟨-, -, -, -, -, -, e30, e31, -⟩ := block_index1 t
  funext y
  show V c main_v43 (((cfg1.win 3).blk t).view.emb y) = V c main_v43 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The block of the second weight matrix at any point is the matrix. -/
theorem wroot_block1 (c : Dev nD) (t : Fin cfg1.N) :
    (iblk1 (F := Ideal) V c 4 t : S128x128.Idx → EReal) = (V c main_arg10 : S128x128.Idx → EReal) := by
  obtain ⟨-, -, -, -, -, -, -, -, e40, e41, -⟩ := block_index1 t
  funext y
  show V c main_arg10 (((cfg1.win 4).blk t).view.emb y) = V c main_arg10 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-! ## The second stage: from blocks to the array -/

/-- The second stage on the whole arrays as the region finds them. -/
abbrev stage1 (c : Dev nD) : S100000x128.Idx → EReal :=
  gc (M := 100000) (K := 128) (N := 128) (V c main_v42 : S100000x128.Idx → EReal) (V c main_v27 : S100000x128.Idx → EReal)
    (V c main_arg8 : S128x128.Idx → EReal) (V c main_arg10 : S128x128.Idx → EReal) (rowOf (V c main_v43 : S1x128.Idx → EReal))

/-- What point `t` writes back is block `t` of the stage on the whole arrays. -/
theorem flushed1_eq (c : Dev nD) (t : Fin cfg1.N) :
    (dat1 (F := Ideal) V c).flushed 5 t = ((cfg1.win 5).blk t).view.read (Elt Ideal) (stage1 V c) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [pay1_eq, wrel_block1, bias_block1, wroot_block1]
  obtain ⟨-, -, -, -, -, -, -, -, -, -, e50, e51⟩ := block_index1 t
  funext j
  have hN : cfg1.N = 20 := N_1
  have ht : t.val < 20 := hN ▸ t.isLt
  have hj0 : (j 0).val < 5000 := (j 0).isLt
  have hj1 : (j 1).val < 128 := (j 1).isLt
  have hemb : ((cfg1.win 5).blk t).view.emb j
      = ix2 (⟨5000 * t.val + (j 0).val, by omega⟩ : Fin 100000) (⟨(j 1).val, hj1⟩ : Fin 128) := by
    funext a; apply Fin.ext
    match a with
    | ⟨0, _⟩ => show win1_5.index t (0 : Fin 2) * 5000 + 1 * (j 0).val = 5000 * t.val + (j 0).val; omega
    | ⟨1, _⟩ => show win1_5.index t (1 : Fin 2) * 128 + 1 * (j 1).val = (j 1).val; omega
  rw [View.read_apply, hemb]
  show gc (M := 5000) (K := 128) (N := 128) (iblk1 (F := Ideal) V c 0 t) (iblk1 (F := Ideal) V c 1 t) _ _ _
      (ix2 (⟨(j 0).val, hj0⟩ : Fin 5000) (⟨(j 1).val, hj1⟩ : Fin 128)) = gc _ _ _ _ _ (ix2 _ _)
  rw [gc_rows (iblk1 (F := Ideal) V c 0 t) (iblk1 (F := Ideal) V c 1 t) (V c main_v42 : S100000x128.Idx → EReal)
    (V c main_v27 : S100000x128.Idx → EReal) _ _ _ ⟨(j 0).val, hj0⟩ ⟨5000 * t.val + (j 0).val, by omega⟩ ⟨(j 1).val, hj1⟩
    (fun k => agg_block1 V c t _ k _ rfl) (fun k => feat_block1 V c t _ k _ rfl)]

/-- An index of the array is in point `t`'s block iff each coordinate is in the block's range on its axis. -/
theorem mem_block1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v44).slice (win1_5.rect t)).set ↔ _
  rw [View.set_slice_whole, Rect.mem_set_unit]
  exact Iff.rfl

/-- The blocks tile the array: row `r` is in the block of point `r / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_block1]
  obtain ⟨-, -, -, -, -, -, -, -, -, -, e50, e51⟩ := block_index1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- The second stage's output array after the region: the stage on the whole arrays. -/
theorem final1 (c : Dev nD) : (dat1 (F := Ideal) V c).arrAt 5 cfg1.N
    = gc (M := 100000) (K := 128) (N := 128) (V c main_v42) (V c main_v27) (V c main_arg8) (V c main_arg10)
        (rowOf (V c main_v43)) :=
  (dat1 (F := Ideal) V c).arrAt_eq_of_cover 5 (stage1 V c) (fun t _ => flushed1_eq V c t) cover1

end Cert.KernelIdeal.GcValue

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.DecValue.lean ====
/-
  The value of the decoder region's output array, at any contents of the arrays when the region is entered.

  The region runs over 100 grid points. At point `t` it holds rows `5000 t … 5000 t + 4999` of three row-indexed
  arrays (the two `[500000, 128]` operands and the `[500000, 1]` column) and the whole of six small arrays (two
  `[128, 64]` weight matrices, a `[1, 64]` weight row, a `[1, 64]` bias row, a `[64, 1]` matrix and a `[1, 1]` scalar),
  and writes rows `5000 t … 5000 t + 4999` of the `[500000, 1]` output.

  * `vec_hid`, `vec_out`, `pay_eq`: the body's arithmetic on the blocks it loaded is the decoder `Cert.Net.dec` on those
    blocks. On the extended reals a change of float format is the identity and a matrix product into a zero accumulator
    is the plain sum of products, so the body's term is, entry by entry, the defining expression of `dec`.
  * `idx_facts`, `blk0_apply` … `blk8_eq`: each block as a part of its array, from the printed index maps decided over
    the grid.
  * `flushed_eq`: what point `t` writes back is block `t` of `dec` of the whole arrays, because an entry of `dec` depends
    on one row of the row-indexed operands only (`Cert.Net.dec_rows`).
  * `mem_blk`, `cover`, `final2`: the row blocks tile the output (row `r` is in the block of point `r / 5000`), so the
    array ends holding `dec` of the whole arrays.
-/
import proofs.«175854_j32607391711951_2_alg».proof.Proof.Gen.KernelIdeal.Frame
import proofs.«175854_j32607391711951_2_alg».proof.Proof.Net
import proofs.«175854_j32607391711951_2_alg».proof.Proof.LibRowBias
import proofs.«175854_j32607391711951_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DecValue

open Cert.KernelIdeal Cert.KernelIdeal.Gen Idealize.ShloMosaic Idealize.ShloMosaic.ValueIdx Idealize.ShloMosaic.TcCoe Idealize.SL.Sem
open Idealize.ShloMosaic.Pipeline (Dat)
open Cert.Net Cert.LibRowBias

/-- The decoder's hidden layer as a vector unit spells it: two matrix products into zero accumulators, the outer product
    of a column and a row as a product of two broadcasts, a bias row broadcast over the rows, the rectifier. The
    products' operands are any arrays that agree entry by entry with `zs`, `ws`, `zd`, `wd`. -/
theorem vec_hid {M K N : ℕ} (D : DotDims ⟨2, ![M, K]⟩ ⟨2, ![K, N]⟩ ⟨2, ![M, N]⟩) (hD : D = DotDims.plain M K N)
    (prec : Option ContractPrecision) {φ₁ φ₂ : FTy}
    (zs' zd' : FVec Ideal ⟨2, ![M, K]⟩ φ₁) (ws' wd' : FVec Ideal ⟨2, ![K, N]⟩ φ₂)
    (zs zd : (⟨2, ![M, K]⟩ : Shape).Idx → EReal) (ws wd : (⟨2, ![K, N]⟩ : Shape).Idx → EReal)
    (hzs : ∀ i, zs' i = zs i) (hzd : ∀ i, zd' i = zd i) (hws : ∀ i, ws' i = ws i) (hwd : ∀ i, wd' i = wd i)
    (e : FVec Ideal ⟨2, ![M, 1]⟩ .f32) (ww b : FVec Ideal ⟨2, ![1, N]⟩ .f32)
    (hce : (⟨2, ![M, 1]⟩ : Shape).ShapeCasts ⟨2, ![M, 1]⟩) (hcr : (⟨2, ![1, N]⟩ : Shape).ShapeCasts ⟨2, ![1, N]⟩)
    (hbe : (⟨2, ![M, 1]⟩ : Shape).Broadcasts ⟨2, ![M, N]⟩) (hbr : (⟨2, ![1, N]⟩ : Shape).Broadcasts ⟨2, ![M, N]⟩) :
    maximumf
        (addf
          (addf
            (addf (matmul D prec zs' ws' (constant ⟨2, ![M, N]⟩ .f32 0x00000000#32))
              (matmul D prec zd' wd' (constant ⟨2, ![M, N]⟩ .f32 0x00000000#32)))
            (mulf (broadcastTo ⟨2, ![M, N]⟩ (shapeCast ⟨2, ![M, 1]⟩ e hce) hbe)
              (broadcastTo ⟨2, ![M, N]⟩ (shapeCast ⟨2, ![1, N]⟩ ww hcr) hbr)))
          (broadcastTo ⟨2, ![M, N]⟩ (shapeCast ⟨2, ![1, N]⟩ b hcr) hbr))
        (broadcast ⟨2, ![M, N]⟩ (Scalar.ofBits (F := Ideal) .f32 0x00000000#32))
      = hid zs zd e ws wd (rowOf ww) (rowOf b) := by
  funext i
  obtain ⟨p, q, rfl⟩ : ∃ (p : Fin M) (q : Fin N), i = ix2 p q := ⟨i 0, i 1, eq_ix2 i⟩
  show max (((FloatOps.matmul D prec zs' ws' (constant ⟨2, ![M, N]⟩ .f32 0x00000000#32) (ix2 p q)
          + FloatOps.matmul D prec zd' wd' (constant ⟨2, ![M, N]⟩ .f32 0x00000000#32) (ix2 p q))
        + broadcastTo ⟨2, ![M, N]⟩ (shapeCast ⟨2, ![M, 1]⟩ e hce) hbe (ix2 p q)
          * broadcastTo ⟨2, ![M, N]⟩ (shapeCast ⟨2, ![1, N]⟩ ww hcr) hbr (ix2 p q))
        + broadcastTo ⟨2, ![M, N]⟩ (shapeCast ⟨2, ![1, N]⟩ b hcr) hbr (ix2 p q)) (Ideal.ofBits .f32 0x00000000#32)
    = max ((((∑ k : Fin K, zs (ix2 p k) * ws (ix2 k q)) + ∑ k : Fin K, zd (ix2 p k) * wd (ix2 k q))
        + e (ix2 p (0 : Fin 1)) * ww (ix2 (0 : Fin 1) q)) + b (ix2 (0 : Fin 1) q)) 0
  rw [Cert.LibPlainMatmul.matmul_plain_zero_apply D hD, Cert.LibPlainMatmul.matmul_plain_zero_apply D hD,
    Cert.LibColumn.broadcastTo_a1_ab_apply, broadcastTo_1b_ab_apply, broadcastTo_1b_ab_apply, shapeCast_self, shapeCast_self, shapeCast_self,
    Ideal.ofBits_zero_f32]
  simp only [hzs, hzd, hws, hwd]

/-- The decoder's last step as a vector unit spells it: the hidden layer times an `[N, 1]` matrix into a zero accumulator,
    plus a `[1, 1]` array broadcast over the rows. -/
theorem vec_out {M N : ℕ} (D : DotDims ⟨2, ![M, N]⟩ ⟨2, ![N, 1]⟩ ⟨2, ![M, 1]⟩) (hD : D = DotDims.plain M N 1)
    (prec : Option ContractPrecision) {φ₁ φ₂ : FTy}
    (h' : FVec Ideal ⟨2, ![M, N]⟩ φ₁) (w' : FVec Ideal ⟨2, ![N, 1]⟩ φ₂)
    (h : (⟨2, ![M, N]⟩ : Shape).Idx → EReal) (w : (⟨2, ![N, 1]⟩ : Shape).Idx → EReal)
    (hh : ∀ i, h' i = h i) (hw : ∀ i, w' i = w i)
    (b : FVec Ideal ⟨2, ![1, 1]⟩ .f32) (hc : (⟨2, ![1, 1]⟩ : Shape).ShapeCasts ⟨2, ![1, 1]⟩)
    (hb : (⟨2, ![1, 1]⟩ : Shape).Broadcasts ⟨2, ![M, 1]⟩) :
    addf (matmul D prec h' w' (constant ⟨2, ![M, 1]⟩ .f32 0x00000000#32))
        (broadcastTo ⟨2, ![M, 1]⟩ (shapeCast ⟨2, ![1, 1]⟩ b hc) hb)
      = fun i => prod h w i + b (ix2 (0 : Fin 1) (0 : Fin 1)) := by
  funext i
  obtain ⟨p, q, rfl⟩ : ∃ (p : Fin M) (q : Fin 1), i = ix2 p q := ⟨i 0, i 1, eq_ix2 i⟩
  obtain rfl : q = 0 := Subsingleton.elim _ _
  show FloatOps.matmul D prec h' w' (constant ⟨2, ![M, 1]⟩ .f32 0x00000000#32) (ix2 p 0)
      + broadcastTo ⟨2, ![M, 1]⟩ (shapeCast ⟨2, ![1, 1]⟩ b hc) hb (ix2 p 0)
    = (∑ k : Fin N, h (ix2 p k) * w (ix2 k 0)) + b (ix2 (0 : Fin 1) (0 : Fin 1))
  rw [Cert.LibPlainMatmul.matmul_plain_zero_apply D hD, broadcastTo_1b_ab_apply, shapeCast_self]
  simp only [hh, hw]

/-- The body's arithmetic on its loaded blocks is the decoder on those blocks: the float-format changes and the
    same-shape layout changes of the product operands leave every entry as it was. -/
theorem pay_eq (x0 x1 : Vec Ideal S5000x128 .f32) (x3 x4 : Vec Ideal S128x64 .f32) (x2 : Vec Ideal S5000x1 .f32)
    (x5 x6 : Vec Ideal S1x64 .f32) (x7 : Vec Ideal S64x1 .f32) (x8 : Vec Ideal S1x1 .f32) :
    k2_pay1 x0 x1 x3 x4 x2 x5 x6 x7 x8
      = dec (M := 5000) (K := 128) (N := 64) x0 x1 x2 x3 x4 (rowOf x5) (rowOf x6) x7
          (x8 (ix2 (0 : Fin 1) (0 : Fin 1))) := by
  unfold k2_pay1
  refine (vec_out (M := 5000) (N := 64) dot_S5000x64_S64x1_S5000x1_1_0_0_1_n_n rfl none _ _
    (hid x0 x1 x2 x3 x4 (rowOf x5) (rowOf x6)) x7 (fun i => ?_) (fun _ => rfl) x8 _ _).trans rfl
  exact congrFun (vec_hid (M := 5000) (K := 128) (N := 64) dot_S5000x128_S128x64_S5000x64_1_0_0_1_n_n rfl none
    _ _ _ _ x0 x1 x3 x4
    (fun i => congrFun (shapeCast_self x0 _) i) (fun i => congrFun (shapeCast_self x1 _) i)
    (fun i => congrFun (shapeCast_self x3 _) i) (fun i => congrFun (shapeCast_self x4 _) i)
    x2 x5 x6 _ _ _ _) i

variable (V : (c : Dev nD) → (b : Ref sig .tc) → Buf (Elt Ideal) ((c : Thread nD τ).loc b))

theorem hz : (![0, 0] : Fin 2 → Nat) = fun _ => 0 := funext fun a => by fin_cases a <;> rfl

/-- The decoder of the arrays as the region finds them. -/
abbrev G (c : Dev nD) : S500000x1.Idx → EReal :=
  dec (M := 500000) (K := 128) (N := 64) (V c main_v53) (V c main_v62) (V c main_v63) (V c main_v64) (V c main_v65)
    (rowOf (V c main_v66)) (rowOf (V c main_v67)) (V c main_arg13) (V c main_v68 (ix2 (0 : Fin 1) (0 : Fin 1)))

/-- The printed index maps, decided over the grid: the three row-indexed inputs and the output are at row block `t`,
    the weights and biases at their one block. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

theorem lt_grid (t : Fin cfg2.N) : t.val < 100 := lt_of_lt_of_eq (show t.val < grid2.N from t.isLt) N_2

/-- The block of window 0 at point `t` is rows `5000 t … 5000 t + 4999` of its array. -/
theorem blk0_apply (c : Dev nD) (t : Fin cfg2.N) (x : S5000x128.Idx) (k : S500000x128.Idx)
    (hk0 : (k 0).val = 5000 * t.val + (x 0).val) (hk1 : (k 1).val = (x 1).val) :
    (iblk2 V c 0 t : Vec Ideal S5000x128 .f32) x = (V c main_v53 : S500000x128.Idx → EReal) k := by
  obtain ⟨⟨e0, e1⟩, -⟩ := idx_facts t
  unfold iblk2
  rw [View.read_apply]
  show V c main_v53 _ = V c main_v53 k
  congr 1
  funext a
  apply Fin.ext
  match a with
  | ⟨0, _⟩ => show win2_0.index t 0 * 5000 + 1 * (x 0).val = (k 0).val; omega
  | ⟨1, _⟩ => show win2_0.index t 1 * 128 + 1 * (x 1).val = (k 1).val; omega

/-- The same for window 1. -/
theorem blk1_apply (c : Dev nD) (t : Fin cfg2.N) (x : S5000x128.Idx) (k : S500000x128.Idx)
    (hk0 : (k 0).val = 5000 * t.val + (x 0).val) (hk1 : (k 1).val = (x 1).val) :
    (iblk2 V c 1 t : Vec Ideal S5000x128 .f32) x = (V c main_v62 : S500000x128.Idx → EReal) k := by
  obtain ⟨-, ⟨e0, e1⟩, -⟩ := idx_facts t
  unfold iblk2
  rw [View.read_apply]
  show V c main_v62 _ = V c main_v62 k
  congr 1
  funext a
  apply Fin.ext
  match a with
  | ⟨0, _⟩ => show win2_1.index t 0 * 5000 + 1 * (x 0).val = (k 0).val; omega
  | ⟨1, _⟩ => show win2_1.index t 1 * 128 + 1 * (x 1).val = (k 1).val; omega

/-- The block of window 2 at point `t` is rows `5000 t … 5000 t + 4999` of the one-column array. -/
theorem blk2_apply (c : Dev nD) (t : Fin cfg2.N) (x : S5000x1.Idx) (k : S500000x1.Idx)
    (hk0 : (k 0).val = 5000 * t.val + (x 0).val) (hk1 : (k 1).val = (x 1).val) :
    (iblk2 V c 2 t : Vec Ideal S5000x1 .f32) x = (V c main_v63 : S500000x1.Idx → EReal) k := by
  obtain ⟨-, -, ⟨e0, e1⟩, -⟩ := idx_facts t
  unfold iblk2
  rw [View.read_apply]
  show V c main_v63 _ = V c main_v63 k
  congr 1
  funext a
  apply Fin.ext
  match a with
  | ⟨0, _⟩ => show win2_2.index t 0 * 5000 + 1 * (x 0).val = (k 0).val; omega
  | ⟨1, _⟩ => show win2_2.index t 1 * 1 + 1 * (x 1).val = (k 1).val; omega

/-- Windows 3 to 8 hold their whole arrays at every point. -/
theorem blk3_eq (c : Dev nD) (t : Fin cfg2.N) :
    (iblk2 V c 3 t : Vec Ideal S128x64 .f32) = (V c main_v64 : S128x64.Idx → EReal) := by
  obtain ⟨-, -, -, ⟨e0, e1⟩, -⟩ := idx_facts t
  funext x
  unfold iblk2
  rw [View.read_apply]
  show V c main_v64 _ = V c main_v64 x
  congr 1
  funext a
  apply Fin.ext
  match a with
  | ⟨0, _⟩ => show win2_3.index t 0 * 128 + 1 * (x 0).val = (x 0).val; omega
  | ⟨1, _⟩ => show win2_3.index t 1 * 64 + 1 * (x 1).val = (x 1).val; omega

theorem blk4_eq (c : Dev nD) (t : Fin cfg2.N) :
    (iblk2 V c 4 t : Vec Ideal S128x64 .f32) = (V c main_v65 : S128x64.Idx → EReal) := by
  obtain ⟨-, -, -, -, ⟨e0, e1⟩, -⟩ := idx_facts t
  funext x
  unfold iblk2
  rw [View.read_apply]
  show V c main_v65 _ = V c main_v65 x
  congr 1
  funext a
  apply Fin.ext
  match a with
  | ⟨0, _⟩ => show win2_4.index t 0 * 128 + 1 * (x 0).val = (x 0).val; omega
  | ⟨1, _⟩ => show win2_4.index t 1 * 64 + 1 * (x 1).val = (x 1).val; omega

theorem blk5_eq (c : Dev nD) (t : Fin cfg2.N) :
    (iblk2 V c 5 t : Vec Ideal S1x64 .f32) = (V c main_v66 : S1x64.Idx → EReal) := by
  obtain ⟨-, -, -, -, -, ⟨e0, e1⟩, -⟩ := idx_facts t
  funext x
  unfold iblk2
  rw [View.read_apply]
  show V c main_v66 _ = V c main_v66 x
  congr 1
  funext a
  apply Fin.ext
  match a with
  | ⟨0, _⟩ => show win2_5.index t 0 * 1 + 1 * (x 0).val = (x 0).val; omega
  | ⟨1, _⟩ => show win2_5.index t 1 * 64 + 1 * (x 1).val = (x 1).val; omega

theorem blk6_eq (c : Dev nD) (t : Fin cfg2.N) :
    (iblk2 V c 6 t : Vec Ideal S1x64 .f32) = (V c main_v67 : S1x64.Idx → EReal) := by
  obtain ⟨-, -, -, -, -, -, ⟨e0, e1⟩, -⟩ := idx_facts t
  funext x
  unfold iblk2
  rw [View.read_apply]
  show V c main_v67 _ = V c main_v67 x
  congr 1
  funext a
  apply Fin.ext
  match a with
  | ⟨0, _⟩ => show win2_6.index t 0 * 1 + 1 * (x 0).val = (x 0).val; omega
  | ⟨1, _⟩ => show win2_6.index t 1 * 64 + 1 * (x 1).val = (x 1).val; omega

theorem blk7_eq (c : Dev nD) (t : Fin cfg2.N) :
    (iblk2 V c 7 t : Vec Ideal S64x1 .f32) = (V c main_arg13 : S64x1.Idx → EReal) := by
  obtain ⟨-, -, -, -, -, -, -, ⟨e0, e1⟩, -⟩ := idx_facts t
  funext x
  unfold iblk2
  rw [View.read_apply]
  show V c main_arg13 _ = V c main_arg13 x
  congr 1
  funext a
  apply Fin.ext
  match a with
  | ⟨0, _⟩ => show win2_7.index t 0 * 64 + 1 * (x 0).val = (x 0).val; omega
  | ⟨1, _⟩ => show win2_7.index t 1 * 1 + 1 * (x 1).val = (x 1).val; omega

theorem blk8_eq (c : Dev nD) (t : Fin cfg2.N) :
    (iblk2 V c 8 t : Vec Ideal S1x1 .f32) = (V c main_v68 : S1x1.Idx → EReal) := by
  obtain ⟨-, -, -, -, -, -, -, -, ⟨e0, e1⟩, -⟩ := idx_facts t
  funext x
  unfold iblk2
  rw [View.read_apply]
  show V c main_v68 _ = V c main_v68 x
  congr 1
  funext a
  apply Fin.ext
  match a with
  | ⟨0, _⟩ => show win2_8.index t 0 * 1 + 1 * (x 0).val = (x 0).val; omega
  | ⟨1, _⟩ => show win2_8.index t 1 * 1 + 1 * (x 1).val = (x 1).val; omega

/-- WHAT POINT `t` WRITES BACK is block `t` of the decoder of the arrays as the region finds them. -/
theorem flushed_eq (c : Dev nD) (t : Fin cfg2.N) :
    (dat2 (F := Ideal) V c).flushed 9 t = ((cfg2.win 9).blk t).view.read (Elt Ideal) (G V c) := by
  show (cfg2.win 9).cut (grid2.coords t) ((dat2 (F := Ideal) V c).after 9 t) = _
  rw [after2_9]
  unfold out2_9
  rw [View.canon_unit_zero hz]
  simp only [View.ld_unit_zero (S := S5000x128) hz, View.ld_unit_zero (S := S128x64) hz, View.ld_unit_zero (S := S5000x1) hz,
    View.ld_unit_zero (S := S1x64) hz, View.ld_unit_zero (S := S64x1) hz, View.ld_unit_zero (S := S1x1) hz]
  rw [pay_eq]
  funext j
  obtain ⟨p, q, rfl⟩ : ∃ (p : Fin 5000) (q : Fin 1), j = ix2 p q := ⟨j 0, j 1, eq_ix2 j⟩
  show dec (M := 5000) (K := 128) (N := 64) (iblk2 V c 0 t) (iblk2 V c 1 t) (iblk2 V c 2 t) (iblk2 V c 3 t) (iblk2 V c 4 t)
      (rowOf (iblk2 V c 5 t)) (rowOf (iblk2 V c 6 t)) (iblk2 V c 7 t) (iblk2 V c 8 t (ix2 (0 : Fin 1) (0 : Fin 1))) (ix2 p q)
    = G V c (((cfg2.win 9).blk t).view.emb (ix2 p q))
  have ht := lt_grid t
  have hP : 5000 * t.val + p.val < 500000 := by have := p.isLt; omega
  obtain ⟨-, -, -, -, -, -, -, -, -, ⟨e0, e1⟩⟩ := idx_facts t
  have hemb : ((cfg2.win 9).blk t).view.emb (ix2 p q) = ix2 (⟨5000 * t.val + p.val, hP⟩ : Fin 500000) q := by
    funext a
    apply Fin.ext
    match a with
    | ⟨0, _⟩ => show win2_9.index t 0 * 5000 + 1 * p.val = 5000 * t.val + p.val; omega
    | ⟨1, _⟩ => show win2_9.index t 1 * 1 + 1 * q.val = q.val; omega
  rw [hemb, blk3_eq V c t, blk4_eq V c t, blk5_eq V c t, blk6_eq V c t, blk7_eq V c t, blk8_eq V c t]
  exact dec_rows _ _ _ _ _ _ _ _ _ _ _ _ p ⟨5000 * t.val + p.val, hP⟩ q
    (fun k => blk0_apply V c t (ix2 p k) (ix2 _ k) rfl rfl) (fun k => blk1_apply V c t (ix2 p k) (ix2 _ k) rfl rfl)
    (blk2_apply V c t (ix2 p 0) (ix2 _ 0) rfl rfl)

/-- An index of the output array is in point `t`'s block iff each coordinate is in the block's range on its axis. -/
theorem mem_blk (t : Fin cfg2.N) (i : S500000x1.Idx) :
    i ∈ ((cfg2.win 9).blk t).view.set ↔ ∀ a : Fin 2, win2_9.index t a * S5000x1.size a ≤ (i a).val
      ∧ (i a).val < win2_9.index t a * S5000x1.size a + S5000x1.size a := by
  show i ∈ ((View.whole main_v69).slice (win2_9.rect t)).set ↔ _
  rw [View.set_slice_whole, Rect.mem_set_unit]
  exact Iff.rfl

/-- The row blocks tile the output array: row `r` is in the block of point `r / 5000`, and every point writes back. -/
theorem cover (i : S500000x1.Idx) :
    ∃ t : Fin cfg2.N, (cfg2.win 9).flush t = true ∧ i ∈ ((cfg2.win 9).blk t).view.set := by
  have hi0 : (i 0).val < 500000 := (i 0).isLt
  have hi1 : (i 1).val < 1 := (i 1).isLt
  have hN : (i 0).val / 5000 < cfg2.N := by
    show (i 0).val / 5000 < grid2.N
    rw [N_2]; omega
  refine ⟨⟨(i 0).val / 5000, hN⟩, flush2_9 _, ?_⟩
  rw [mem_blk]
  obtain ⟨-, -, -, -, -, -, -, -, -, ⟨e0, e1⟩⟩ := idx_facts ⟨(i 0).val / 5000, hN⟩
  have e0' : win2_9.index ⟨(i 0).val / 5000, hN⟩ 0 = (i 0).val / 5000 := e0
  intro a
  match a with
  | ⟨0, _⟩ =>
    show win2_9.index ⟨(i 0).val / 5000, hN⟩ 0 * 5000 ≤ (i 0).val
      ∧ (i 0).val < win2_9.index ⟨(i 0).val / 5000, hN⟩ 0 * 5000 + 5000
    omega
  | ⟨1, _⟩ =>
    show win2_9.index ⟨(i 0).val / 5000, hN⟩ 1 * 1 ≤ (i 1).val
      ∧ (i 1).val < win2_9.index ⟨(i 0).val / 5000, hN⟩ 1 * 1 + 1
    omega

/-- THE OUTPUT ARRAY after the region: the decoder of the arrays as the region finds them. -/
theorem final2 (c : Dev nD) : (dat2 (F := Ideal) V c).arrAt 9 cfg2.N
    = Cert.Net.dec (M := 500000) (K := 128) (N := 64) (V c main_v53) (V c main_v62) (V c main_v63) (V c main_v64)
        (V c main_v65) (Cert.LibRowBias.rowOf (V c main_v66)) (Cert.LibRowBias.rowOf (V c main_v67)) (V c main_arg13)
        (V c main_v68 (ValueIdx.ix2 (0 : Fin 1) (0 : Fin 1))) :=
  (dat2 (F := Ideal) V c).arrAt_eq_of_cover 9 (G V c) (fun t _ => flushed_eq V c t) cover

end Cert.KernelIdeal.DecValue

end
-- ==== Proof.KernelValue.lean ====
/-
  The kernel program's result as one function of its launch arguments. The first region leaves the first layer of the
  aggregated and the plain node features; the second region leaves the second layer of the first region's output; the
  third region leaves the decoder's output column on the rows of the second region's output at the label edges; the last
  host operation flattens that column. Each region's output array is its stage on the arrays the region was entered with,
  and what those hold is read off the stretches of host operations before it.
-/
import proofs.«175854_j32607391711951_2_alg».proof.Proof.Boundaries
import proofs.«175854_j32607391711951_2_alg».proof.Proof.Closed
import proofs.«175854_j32607391711951_2_alg».proof.Proof.GcValue
import proofs.«175854_j32607391711951_2_alg».proof.Proof.DecValue

set_option maxRecDepth 16384

noncomputable section

namespace Cert.KernelIdeal.KernelValue

open Cert.KernelIdeal Cert.KernelIdeal.Gen Cert.KernelIdeal.Glue Cert.KernelIdeal.Boundaries
open Idealize.ShloMosaic Idealize.ShloMosaic.TcCoe Idealize.SL.Sem Idealize.ShloMosaic.ValueIdx
open Cert.Net Cert.LayerForms Cert.LibRowBias

variable (m : (ℓ : Loc nD τ sig) → Buf (Elt Ideal) ℓ) (ρ : Dev nD → PrngReg)

/-- The first region leaves the first layer `hOf` of the launch arguments. -/
theorem h_eq (c : Dev nD) : W2 m ρ c (Proc.devRef .tc main_v27)
    = hOf (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg6)) := by
  refine (W2_arr m ρ c 5).trans ((Cert.KernelIdeal.GcValue.final0 (V1 m ρ) c).trans ?_)
  show relu (gc (M := 100000) (K := 128) (N := 128) (W1 m ρ c (Proc.devRef .tc main_v25)) (W1 m ρ c (Proc.devRef .tc main_arg0))
    (W1 m ρ c (Proc.devRef .tc main_arg5)) (W1 m ρ c (Proc.devRef .tc main_arg7)) (rowOf (W1 m ρ c (Proc.devRef .tc main_v26)))) = _
  rw [W1_v25, W1_arg0, W1_arg5, W1_arg7, W1_v26, rowOf_asRow128]
  rfl

/-- The second region leaves the second layer `zOf` of the first region's output. -/
theorem z_eq (c : Dev nD) : W4 m ρ c (Proc.devRef .tc main_v44)
    = zOf (W2 m ρ c (Proc.devRef .tc main_v27)) (m ((c : Thread nD τ).loc main_arg1)) (m ((c : Thread nD τ).loc main_arg2)) (m ((c : Thread nD τ).loc main_arg8)) (m ((c : Thread nD τ).loc main_arg10)) (m ((c : Thread nD τ).loc main_arg9)) := by
  refine (W4_arr m ρ c 5).trans ((Cert.KernelIdeal.GcValue.final1 (V3 m ρ) c).trans ?_)
  show gc (M := 100000) (K := 128) (N := 128) (W3 m ρ c (Proc.devRef .tc main_v42)) (W3 m ρ c (Proc.devRef .tc main_v27))
    (W3 m ρ c (Proc.devRef .tc main_arg8)) (W3 m ρ c (Proc.devRef .tc main_arg10)) (rowOf (W3 m ρ c (Proc.devRef .tc main_v43))) = _
  rw [W3_v42, W3_v27, W3_arg8, W3_arg10, W3_v43, rowOf_asRow128]
  rfl

/-- The third region leaves the decoder's output column on the second region's output. -/
theorem o_eq (c : Dev nD) : W6 m ρ c (Proc.devRef .tc main_v69)
    = decOf (W4 m ρ c (Proc.devRef .tc main_v44)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) := by
  refine (W6_arr m ρ c 9).trans ((Cert.KernelIdeal.DecValue.final2 (V5 m ρ) c).trans ?_)
  show dec (M := 500000) (K := 128) (N := 64) (W5 m ρ c (Proc.devRef .tc main_v53)) (W5 m ρ c (Proc.devRef .tc main_v62))
    (W5 m ρ c (Proc.devRef .tc main_v63)) (W5 m ρ c (Proc.devRef .tc main_v64)) (W5 m ρ c (Proc.devRef .tc main_v65))
    (rowOf (W5 m ρ c (Proc.devRef .tc main_v66))) (rowOf (W5 m ρ c (Proc.devRef .tc main_v67))) (W5 m ρ c (Proc.devRef .tc main_arg13))
    (W5 m ρ c (Proc.devRef .tc main_v68) (ix2 (0 : Fin 1) (0 : Fin 1))) = _
  rw [W5_v53, W5_v62, W5_v63, W5_v64, W5_v65, W5_v66, W5_v67, W5_arg13, W5_v68, rowOf_asRow64, asRow1_apply]
  rfl

/-- The result buffer after the run: the network's closed form on the launch arguments. -/
theorem out_eq (c : Dev nD) : W7 m ρ c (Proc.devRef .tc main_v70)
    = outOf (zOf (hOf (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg6)))
        (m ((c : Thread nD τ).loc main_arg1)) (m ((c : Thread nD τ).loc main_arg2)) (m ((c : Thread nD τ).loc main_arg8)) (m ((c : Thread nD τ).loc main_arg10)) (m ((c : Thread nD τ).loc main_arg9)))
      (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) := by
  rw [W7_v70, o_eq, z_eq, h_eq]
  rfl

end Cert.KernelIdeal.KernelValue

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«175854_j32607391711951_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.NetHost.lean ====
/-
  The dense stage of a graph convolution as a host program spells it: the general dot product of the aggregated features
  with one weight matrix, plus the bias vector broadcast to a row along a new leading axis and that row broadcast over the
  rows, plus the general dot product of the features with the other weight matrix. Entry by entry that is
  `((∑ k, a (p, k) · w (k, q)) + b q) + ∑ k, x (p, k) · w' (k, q)`: the array `Cert.Net.gc a x w w' b`.
-/
import proofs.«175854_j32607391711951_2_alg».proof.Proof.Net
import proofs.«175854_j32607391711951_2_alg».proof.Proof.LibRowBias
import proofs.«175854_j32607391711951_2_alg».proof.Proof.LibPlainDot
import Idealize.ShloMosaic.PureOps.Ideal.Laws
import Idealize.ShloMosaic.Lib.ValueIdx

noncomputable section

open scoped BigOperators

namespace Cert.Net

open Idealize.ShloMosaic Idealize.ShloMosaic.ValueIdx Cert.DenseLayer Cert.LayerForms

/-- The stage as a host program spells it. -/
theorem host_gc {M K N : ℕ} (D : DotDims ⟨2, ![M, K]⟩ ⟨2, ![K, N]⟩ ⟨2, ![M, N]⟩) (hD : D = DotDims.plain M K N)
    (prec : Option ContractPrecision) (a x : FVec Ideal ⟨2, ![M, K]⟩ .f32) (w w' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral D prec a w)
          (broadcastInDim ⟨2, ![M, N]⟩ ![0, 1] h2 (broadcastInDim ⟨2, ![1, N]⟩ ![1] h1 b)))
        (Host.dotGeneral D prec x w')
      = gc a x w w' (colBias b) := by
  rw [Cert.LibRowBias.host_dense D hD]
  funext i
  obtain ⟨p, q, rfl⟩ : ∃ (p : Fin M) (q : Fin N), i = ix2 p q := ⟨i 0, i 1, eq_ix2 i⟩
  show dense a w (colBias b) (ix2 p q) + Host.dotGeneral D prec x w' (ix2 p q) = gc a x w w' (colBias b) (ix2 p q)
  rw [Cert.LibPlainDot.dot_plain_apply D hD, gc_ix2, prod_ix2]

end Cert.Net

end
-- ==== Proof.DecHost.lean ====
/-
  The decoder as the host program computes it is the decoder on the three column groups kept apart.

  The host joins the three column groups `zs`, `zd` (128 columns each) and `e` (one column) into one `[M, 257]` array,
  multiplies by the `[257, 64]` weight matrix, adds the bias, applies the rectifier, multiplies by the `[64, 1]` matrix
  and adds the scalar bias. A sum over the 257 joined columns is the sum over the first 128, plus the sum over the next
  128, plus the last term (only commutativity and associativity of the sum are used), and the joined array read at column
  `k` is `zs` at `k`, `zd` at `k - 128` or `e` at `0` according to which span holds `k`; so the first layer is the hidden
  layer `hid` on the three groups with the weight matrix's rows `0 … 127`, `128 … 255` and `256`.
-/
import proofs.«175854_j32607391711951_2_alg».proof.Proof.Net
import proofs.«175854_j32607391711951_2_alg».proof.Proof.LibPlainDot
import proofs.«175854_j32607391711951_2_alg».proof.Proof.LibRowBias
import proofs.«175854_j32607391711951_2_alg».proof.ReferenceIdeal
import proofs.«175854_j32607391711951_2_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.Net

open Cert.ReferenceIdeal Cert.ReferenceIdeal.Gen Idealize.ShloMosaic Idealize.ShloMosaic.ValueIdx
open Cert.DenseLayer Cert.LayerForms Cert.LibRowBias

/-- A sum over 257 indices: the first 128, the next 128, and the last one. -/
theorem sum_257 (f : Fin 257 → EReal) :
    ∑ j : Fin 257, f j
      = ((∑ j : Fin 128, f ⟨j.val, by omega⟩) + ∑ j : Fin 128, f ⟨128 + j.val, by omega⟩) + f ⟨256, by omega⟩ := by
  have h1 : ∑ j : Fin 257, f j = (∑ j : Fin 256, f j.castSucc) + f (Fin.last 256) := Fin.sum_univ_castSucc (n := 256) f
  have h2 : ∑ j : Fin 256, f j.castSucc
      = (∑ j : Fin 128, f (Fin.castAdd 128 j).castSucc) + ∑ j : Fin 128, f (Fin.natAdd 128 j).castSucc :=
    Fin.sum_univ_add (a := 128) (b := 128) fun j : Fin (128 + 128) => f (Fin.castSucc (n := 256) j)
  rw [h1, h2]
  rfl

section Joined

variable (zs zd : FVec Ideal S500000x128 .f32) (e : FVec Ideal S500000x1 .f32)

/-- The three column groups joined along the columns. -/
abbrev joined : FVec Ideal S500000x257 .f32 :=
  concatenate S500000x257 1 [⟨S500000x128, zs⟩, ⟨S500000x128, zd⟩, ⟨S500000x1, e⟩]
    concatenates_S500000x128_S500000x128_S500000x1_S500000x257_d1

/-- A column among the first 128 of the joined array is that column of the first group. -/
theorem joined_first (p : Fin 500000) (k' : Fin 257) (k : Fin 128) (hk : k'.val = k.val) :
    joined zs zd e (ix2 p k') = zs (ix2 p k) := by
  refine concatenate_apply_piece (t := S500000x257) (1 : Fin 2) [⟨S500000x128, zs⟩, ⟨S500000x128, zd⟩, ⟨S500000x1, e⟩]
    concatenates_S500000x128_S500000x128_S500000x1_S500000x257_d1 (ix2 p k') 0 (by show (0 : ℕ) < 3; omega) S500000x128 zs rfl rfl 0 rfl (ix2 p k)
    (fun b hb => ?_) ?_
  · match b with
    | ⟨0, _⟩ => rfl
    | ⟨1, _⟩ => exact absurd rfl hb
  · show 0 + k.val = k'.val
    omega

/-- A column among the next 128 is that column, less 128, of the second group. -/
theorem joined_second (p : Fin 500000) (k' : Fin 257) (k : Fin 128) (hk : k'.val = 128 + k.val) :
    joined zs zd e (ix2 p k') = zd (ix2 p k) := by
  refine concatenate_apply_piece (t := S500000x257) (1 : Fin 2) [⟨S500000x128, zs⟩, ⟨S500000x128, zd⟩, ⟨S500000x1, e⟩]
    concatenates_S500000x128_S500000x128_S500000x1_S500000x257_d1 (ix2 p k') 1 (by show (1 : ℕ) < 3; omega) S500000x128 zd rfl rfl 128 rfl (ix2 p k)
    (fun b hb => ?_) ?_
  · match b with
    | ⟨0, _⟩ => rfl
    | ⟨1, _⟩ => exact absurd rfl hb
  · show 128 + k.val = k'.val
    omega

/-- The last column is the third group's one column. -/
theorem joined_last (p : Fin 500000) (k' : Fin 257) (hk : k'.val = 256) :
    joined zs zd e (ix2 p k') = e (ix2 p (0 : Fin 1)) := by
  refine concatenate_apply_piece (t := S500000x257) (1 : Fin 2) [⟨S500000x128, zs⟩, ⟨S500000x128, zd⟩, ⟨S500000x1, e⟩]
    concatenates_S500000x128_S500000x128_S500000x1_S500000x257_d1 (ix2 p k') 2 (by show (2 : ℕ) < 3; omega) S500000x1 e rfl rfl 256 rfl (ix2 p (0 : Fin 1))
    (fun b hb => ?_) ?_
  · match b with
    | ⟨0, _⟩ => rfl
    | ⟨1, _⟩ => exact absurd rfl hb
  · show 256 + 0 = k'.val
    omega

end Joined

section Layers

variable (zs zd : FVec Ideal S500000x128 .f32) (e : FVec Ideal S500000x1 .f32) (Wd1 : FVec Ideal S257x64 .f32)
  (ws wd : (⟨2, ![128, 64]⟩ : Shape).Idx → EReal) (ww : Fin 64 → EReal)
  (hws : ∀ (k : Fin 128) (q : Fin 64), ws (ix2 k q) = Wd1 (ix2 (⟨k.val, by omega⟩ : Fin 257) q))
  (hwd : ∀ (k : Fin 128) (q : Fin 64), wd (ix2 k q) = Wd1 (ix2 (⟨128 + k.val, by omega⟩ : Fin 257) q))
  (hww : ∀ q : Fin 64, ww q = Wd1 (ix2 (⟨256, by omega⟩ : Fin 257) q))

include hws hwd hww in
/-- Row `p` of the joined array against column `q` of the weight matrix, split by column group. -/
theorem joined_dot (p : Fin 500000) (q : Fin 64) :
    ∑ j : Fin 257, joined zs zd e (ix2 p j) * Wd1 (ix2 j q)
      = (prod (M := 500000) (K := 128) (N := 64) zs ws (ix2 p q) + prod (M := 500000) (K := 128) (N := 64) zd wd (ix2 p q))
        + e (ix2 p (0 : Fin 1)) * ww q := by
  rw [sum_257, prod_ix2, prod_ix2]
  congr 1
  · congr 1
    · refine Finset.sum_congr rfl fun j _ => ?_
      rw [joined_first zs zd e p _ j rfl, hws]
    · refine Finset.sum_congr rfl fun j _ => ?_
      rw [joined_second zs zd e p _ j rfl, hwd]
  · rw [joined_last zs zd e p _ rfl, hww]

end Layers

/-- The decoder as the host computes it — join, first layer, rectifier, second layer — is `dec` of the three column
    groups, the first layer's weight matrix read as its rows `0 … 127`, `128 … 255` and `256`. -/
theorem host_dec (zs zd : FVec Ideal S500000x128 .f32) (e : FVec Ideal S500000x1 .f32) (Wd1 : FVec Ideal S257x64 .f32)
    (bd1 : FVec Ideal S64 .f32) (Wd2 : FVec Ideal S64x1 .f32) (bd2 : FVec Ideal S1 .f32)
    (ws wd : (⟨2, ![128, 64]⟩ : Shape).Idx → EReal) (ww b1 : Fin 64 → EReal) (b2 : EReal)
    (hws : ∀ (k : Fin 128) (q : Fin 64), ws (ix2 k q) = Wd1 (ix2 (⟨k.val, by omega⟩ : Fin 257) q))
    (hwd : ∀ (k : Fin 128) (q : Fin 64), wd (ix2 k q) = Wd1 (ix2 (⟨128 + k.val, by omega⟩ : Fin 257) q))
    (hww : ∀ q : Fin 64, ww q = Wd1 (ix2 (⟨256, by omega⟩ : Fin 257) q))
    (hb1 : ∀ q : Fin 64, b1 q = bd1 (ix1 q)) (hb2 : b2 = bd2 (ix1 (0 : Fin 1))) :
    addf (Host.dotGeneral dot_S500000x64_S64x1_S500000x1_1_0_0_1_n_n none
        (maximumf
          (addf (Host.dotGeneral dot_S500000x257_S257x64_S500000x64_1_0_0_1_n_n none
              (concatenate S500000x257 1 [⟨S500000x128, zs⟩, ⟨S500000x128, zd⟩, ⟨S500000x1, e⟩]
                concatenates_S500000x128_S500000x128_S500000x1_S500000x257_d1) Wd1)
            (broadcastInDim S500000x64 ![0, 1] bcast_S1x64_S500000x64_0_1 (broadcastInDim S1x64 ![1] bcast_S64_S1x64_1 bd1)))
          (broadcastInDim S500000x64 ![] bcast_S_S500000x64 (constant (F := Ideal) S_ .f32 0x00000000#32))) Wd2)
      (broadcastInDim S500000x1 ![0, 1] bcast_S1x1_S500000x1_0_1 (broadcastInDim S1x1 ![1] bcast_S1_S1x1_1 bd2))
      = dec (M := 500000) (K := 128) (N := 64) zs zd e ws wd ww b1 Wd2 b2 := by
  rw [host_layer (M := 500000) (K := 257) (N := 64) dot_S500000x257_S257x64_S500000x64_1_0_0_1_n_n rfl none
      (joined zs zd e) Wd1 bd1 bcast_S64_S1x64_1 bcast_S1x64_S500000x64_0_1,
    host_relu,
    host_layer (M := 500000) (K := 64) (N := 1) dot_S500000x64_S64x1_S500000x1_1_0_0_1_n_n rfl none _ Wd2 bd2
      bcast_S1_S1x1_1 bcast_S1x1_S500000x1_0_1]
  funext i
  obtain ⟨p, q, rfl⟩ : ∃ (p : Fin 500000) (q : Fin 1), i = ix2 p q := ⟨i 0, i 1, eq_ix2 i⟩
  obtain rfl : q = 0 := Subsingleton.elim q 0
  rw [dec_ix2, prod_ix2, dense_ix2, hb2]
  show (∑ k : Fin 64, relu (dense (joined zs zd e) Wd1 (colBias bd1)) (ix2 p k) * Wd2 (ix2 k (0 : Fin 1)))
      + bd2 (ix1 (0 : Fin 1)) = _
  refine congrArg (· + bd2 (ix1 (0 : Fin 1))) (Finset.sum_congr rfl fun k _ => ?_)
  refine congrArg (· * Wd2 (ix2 k (0 : Fin 1))) ?_
  show max ((∑ j : Fin 257, joined zs zd e (ix2 p j) * Wd1 (ix2 j k)) + bd1 (ix1 k)) 0 = _
  rw [hid_ix2, joined_dot zs zd e Wd1 ws wd ww hws hwd hww p k, hb1]

end Cert.Net

end
-- ==== Proof.Rows.lean ====
/-
  The three row groups of the decoder's first weight matrix, read at an entry: rows 0–127, rows 128–255 and row 256 of the
  `[257, 64]` matrix.
-/
import proofs.«175854_j32607391711951_2_alg».proof.Proof.Closed
import Idealize.ShloMosaic.Lib.Pipeline.Value
import Idealize.ShloMosaic.Lib.ValueIdx

noncomputable section

namespace Cert.KernelIdeal.Glue

open Cert.KernelIdeal Cert.KernelIdeal.Gen Idealize.ShloMosaic Idealize.ShloMosaic.TcCoe Idealize.ShloMosaic.ValueIdx
open Cert.LibRowBias

theorem rowsA_apply (W : FA S257x64) (k : Fin 128) (q : Fin 64) :
    rowsA W (ix2 k q) = W (ix2 (⟨k.val, by omega⟩ : Fin 257) q) := by
  unfold rowsA
  exact extractStridedSlice_apply ![0, 0] W slices_S257x64_S128x64_0_0 (ix2 k q) (ix2 (⟨k.val, by omega⟩ : Fin 257) q) fun a => by
    match a with
    | ⟨0, _⟩ => show k.val = 0 + k.val; omega
    | ⟨1, _⟩ => show q.val = 0 + q.val; omega

theorem rowsB_apply (W : FA S257x64) (k : Fin 128) (q : Fin 64) :
    rowsB W (ix2 k q) = W (ix2 (⟨128 + k.val, by omega⟩ : Fin 257) q) := by
  unfold rowsB
  exact extractStridedSlice_apply ![128, 0] W slices_S257x64_S128x64_128_0 (ix2 k q) (ix2 (⟨128 + k.val, by omega⟩ : Fin 257) q) fun a => by
    match a with
    | ⟨0, _⟩ => show 128 + k.val = 128 + k.val; rfl
    | ⟨1, _⟩ => show q.val = 0 + q.val; omega

theorem rowC_apply (W : FA S257x64) (q : Fin 64) :
    rowOf (rowC W) q = W (ix2 (⟨256, by omega⟩ : Fin 257) q) := by
  unfold rowOf rowC
  exact extractStridedSlice_apply ![256, 0] W slices_S257x64_S1x64_256_0 (ix2 (0 : Fin 1) q) (ix2 (⟨256, by omega⟩ : Fin 257) q) fun a => by
    match a with
    | ⟨0, _⟩ => show 256 = 256 + 0; rfl
    | ⟨1, _⟩ => show q.val = 0 + q.val; omega

end Cert.KernelIdeal.Glue

end
-- ==== Proof.RefValue.lean ====
/-
  The reference's result as the same function of its arguments. Its stages are read one at a time: the aggregation is the
  shared host side, each graph-convolution stage in its host spelling is `Net.gc`, the gathers at the label edges are the
  shared host side again, and the decoder on the concatenated input is the decoder on the column groups kept apart.
-/
import proofs.«175854_j32607391711951_2_alg».proof.Proof.Gen.ReferenceIdeal.Read
import proofs.«175854_j32607391711951_2_alg».proof.Proof.Closed
import proofs.«175854_j32607391711951_2_alg».proof.Proof.NetHost
import proofs.«175854_j32607391711951_2_alg».proof.Proof.DecHost
import proofs.«175854_j32607391711951_2_alg».proof.Proof.Rows

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.KernelIdeal.Glue Cert.Net Cert.LayerForms Cert.LibRowBias

/-- The reference's aggregation of the node features is `agg`: the same operations in the same order. -/
theorem v25_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) : val_main_v25 (F := Ideal) x0 x1 x2 = agg x0 x1 x2 := rfl

/-- Its first layer is `hOf`. -/
theorem v32_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v32 (F := Ideal) x0 x1 x2 x5 x6 x7 = hOf x0 x1 x2 x5 x7 x6 := by
  unfold val_main_v32 val_main_v31 val_main_v30 val_main_v29 val_main_v28 val_main_v27 val_main_v26 val_main_call0_v0
    val_main_call0_cst hOf
  rw [v25_eq]
  refine (host_relu _ _).trans ?_
  exact congrArg relu (host_gc (M := 100000) (K := 128) (N := 128) dot_S100000x128_S128x128_S100000x128_1_0_0_1_n_n rfl none
    (agg x0 x1 x2) x0 x5 x7 x6 bcast_S128_S1x128_1 bcast_S1x128_S100000x128_0_1)

/-- Its second aggregation is `agg` of the first layer's output (the in-degree count is recomputed, by the same operations). -/
theorem v54_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v54 (F := Ideal) x0 x1 x2 x5 x6 x7 = agg (val_main_v32 (F := Ideal) x0 x1 x2 x5 x6 x7) x1 x2 := rfl

/-- Its second layer is `zOf`. -/
theorem v60_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v60 (F := Ideal) x0 x1 x2 x5 x6 x7 x8 x9 x10 = zOf (hOf x0 x1 x2 x5 x7 x6) x1 x2 x8 x10 x9 := by
  unfold val_main_v60 val_main_v59 val_main_v58 val_main_v57 val_main_v56 val_main_v55 zOf
  rw [v54_eq, v32_eq]
  exact host_gc (M := 100000) (K := 128) (N := 128) dot_S100000x128_S128x128_S100000x128_1_0_0_1_n_n rfl none
    (agg (hOf x0 x1 x2 x5 x7 x6) x1 x2) (hOf x0 x1 x2 x5 x7 x6) x8 x10 x9 bcast_S128_S1x128_1 bcast_S1x128_S100000x128_0_1

/-- The encoded nodes at the label edges' endpoints, and the explicit weight as a column. -/
theorem v69_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S2x500000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v69 (F := Ideal) x0 x1 x2 x3 x5 x6 x7 x8 x9 x10 = pick0 (val_main_v60 (F := Ideal) x0 x1 x2 x5 x6 x7 x8 x9 x10) x3 := rfl
theorem v78_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S2x500000, .i32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v78 (F := Ideal) x0 x1 x2 x3 x5 x6 x7 x8 x9 x10 = pick1 (val_main_v60 (F := Ideal) x0 x1 x2 x5 x6 x7 x8 x9 x10) x3 := rfl
theorem v79_eq (x4 : (⟨S500000, .f32⟩ : BufTy).Contents (Elt Ideal)) : val_main_v79 (F := Ideal) x4 = colOf x4 := rfl

/-- Its decoder — the three column groups concatenated, ONE product with the whole first weight matrix — is the decoder on
    the groups kept apart, with the matrix's three row groups. -/
theorem v89_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S2x500000, .i32⟩ : BufTy).Contents (Elt Ideal)) (x4 : (⟨S500000, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S257x64, .f32⟩ : BufTy).Contents (Elt Ideal)) (x12 : (⟨S64, .f32⟩ : BufTy).Contents (Elt Ideal)) (x13 : (⟨S64x1, .f32⟩ : BufTy).Contents (Elt Ideal)) (x14 : (⟨S1, .f32⟩ : BufTy).Contents (Elt Ideal)) :
    val_main_v89 (F := Ideal) x0 x1 x2 x3 x4 x5 x6 x7 x8 x9 x10 x11 x12 x13 x14
      = decOf (zOf (hOf x0 x1 x2 x5 x7 x6) x1 x2 x8 x10 x9) x3 x4 x11 x12 x13 x14 := by
  unfold val_main_v89 val_main_v88 val_main_v87 val_main_v86 val_main_v85 val_main_v84 val_main_v83 val_main_v82 val_main_v81
    val_main_v80 val_main_call1_v0 val_main_call1_cst decOf
  rw [v69_eq, v78_eq, v79_eq, v60_eq]
  exact host_dec _ _ _ x11 x12 x13 x14 (rowsA x11) (rowsB x11) (rowOf (rowC x11)) (colBias x12) (x14 (ix1 (0 : Fin 1)))
    (rowsA_apply x11) (rowsB_apply x11) (rowC_apply x11) (fun _ => rfl) rfl

/-- The reference's result is the network's closed form of its arguments. -/
theorem v90_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S2x500000, .i32⟩ : BufTy).Contents (Elt Ideal)) (x4 : (⟨S500000, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S257x64, .f32⟩ : BufTy).Contents (Elt Ideal)) (x12 : (⟨S64, .f32⟩ : BufTy).Contents (Elt Ideal)) (x13 : (⟨S64x1, .f32⟩ : BufTy).Contents (Elt Ideal)) (x14 : (⟨S1, .f32⟩ : BufTy).Contents (Elt Ideal)) :
    val_main_v90 (F := Ideal) x0 x1 x2 x3 x4 x5 x6 x7 x8 x9 x10 x11 x12 x13 x14
      = outOf (zOf (hOf x0 x1 x2 x5 x7 x6) x1 x2 x8 x10 x9) x3 x4 x11 x12 x13 x14 := by
  unfold val_main_v90 outOf
  rw [v89_eq]

end Cert.ReferenceIdeal.RefValue

end
-- ==== Proof.lean ====
/-
  A two-layer graph convolution with a decoder on label edges, computed by three kernels among host operations, against
  the same network computed on the host.

  The host side of both programs is the same: gather the source rows, scale by the edge weights, add at the destinations,
  divide by the clamped in-degree (`Glue.agg`); gather the encoded nodes at the label edges (`Glue.pick0`, `pick1`). The
  programs differ only in the three dense stages. The kernels compute each graph-convolution stage
  `a · w + b + x · w'` block of rows by block of rows (an entry depends on one row of `a` and `x`), the host with two
  general dot products: one function, `Net.gc`. The decoder kernel keeps the three column groups of its input apart and
  sums three partial products, the host concatenates them and takes ONE product with the `[257, 64]` weight matrix: a sum
  over 257 indices split as 128 + 128 + 1, which on the extended reals needs only that addition is commutative and
  associative: one function, `Net.dec`. Changes of float format are the identity on the extended reals. So both programs
  end with the result at `Glue.outOf (zOf (hOf …))` of the launch arguments, and no finiteness of the inputs is used.

  The frames of the two kernel programs are their generated frame certificates; the reference's frame is its generated run
  with the result dropped; nothing was rewritten by the idealization, so its preservation claim is trivial.
-/
import proofs.«175854_j32607391711951_2_alg».proof.Defs
import proofs.«175854_j32607391711951_2_alg».proof.Proof.Gen.Kernel
import proofs.«175854_j32607391711951_2_alg».proof.Proof.Gen.Kernel.Skeleton
import proofs.«175854_j32607391711951_2_alg».proof.Proof.Gen.Kernel.Launch
import proofs.«175854_j32607391711951_2_alg».proof.Proof.Gen.Kernel.Points
import proofs.«175854_j32607391711951_2_alg».proof.Proof.Gen.Kernel.Frame
import proofs.«175854_j32607391711951_2_alg».proof.Proof.Gen.KernelIdeal
import proofs.«175854_j32607391711951_2_alg».proof.Proof.Gen.KernelIdeal.Skeleton
import proofs.«175854_j32607391711951_2_alg».proof.Proof.Gen.KernelIdeal.Launch
import proofs.«175854_j32607391711951_2_alg».proof.Proof.Gen.KernelIdeal.Points
import proofs.«175854_j32607391711951_2_alg».proof.Proof.Gen.KernelIdeal.Frame
import proofs.«175854_j32607391711951_2_alg».proof.Proof.Gen.ReferenceIdeal
import proofs.«175854_j32607391711951_2_alg».proof.Proof.Gen.Pre_finite_inputs
import proofs.«175854_j32607391711951_2_alg».proof.Proof.Gen.ReferenceIdeal.Run
import proofs.«175854_j32607391711951_2_alg».proof.Proof.Gen.ReferenceIdeal.Read
import proofs.«175854_j32607391711951_2_alg».proof.Proof.RunValue
import proofs.«175854_j32607391711951_2_alg».proof.Proof.KernelValue
import proofs.«175854_j32607391711951_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the network's closed form of the launch arguments: the kernel program
    by its run read through its three regions, the reference by its run read one operation at a time. -/
theorem algebraic : Cert.algebraic_KernelIdeal_ReferenceIdeal := by
  intro m ρ m' ρ' _ hagree
  refine ⟨fun c => Cert.KernelIdeal.Glue.outOf (Cert.KernelIdeal.Glue.zOf (Cert.KernelIdeal.Glue.hOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg9)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KernelValue.out_eq m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v90_eq, Cert.ReferenceIdeal.RefValue.v90_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
